-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40 : Shape := ⟨1, ![40]⟩
abbrev S4x3 : Shape := ⟨2, ![4, 3]⟩
abbrev S8 : Shape := ⟨1, ![8]⟩
abbrev S40x2 : Shape := ⟨2, ![40, 2]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S4x3 : S_.BroadcastsInDim S4x3 (![] : Fin 0 → Fin S4x3.rank)
  reducesTo_S4x3_S_d0_1 : S4x3.ReducesTo [0, 1] S_
  bcast_S_S8 : S_.BroadcastsInDim S8 (![] : Fin 0 → Fin S8.rank)
  reducesTo_S8_S_d0 : S8.ReducesTo [0] S_
  bcast_S_S40x2 : S_.BroadcastsInDim S40x2 (![] : Fin 0 → Fin S40x2.rank)
  reducesTo_S40x2_S_d0_1 : S40x2.ReducesTo [0, 1] S_

variable [Facts]

def fn_part1 {F : FTy → Type} [FloatOps F] (main_arg4 : FVec F S40x2 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S40x2 .f32 := Host.absf main_arg4
  let main_cst_6 : FVec F S_ .f32 := constant S_ .f32 0x7F800000#32
  let main_v20 : FVec F S40x2 .f32 := broadcastInDim S40x2 ![] bcast_S_S40x2 main_cst_6
  let main_v21 : IVec S40x2 1 := cmpf .olt main_v19 main_v20
  let main_c_7 : IVec S_ 1 := constantI S_ 1 1#1
  let main_v22 : IVec S_ 1 := (fun x v => Host.reduce IntOp.andi x v reducesTo_S40x2_S_d0_1 h_S_) main_v21 main_c_7
  let main_v23 : IVec S_ 1 := andi main_v18 main_v22
  main_v23

def fn {F : FTy → Type} [FloatOps F] (main_arg0 : FVec F S40 .f32) (main_arg1 : FVec F S40 .f32) (main_arg2 : FVec F S4x3 .f32) (main_arg3 : FVec F S8 .f32) (main_arg4 : FVec F S40x2 .f32) : IVec S_ 1 :=
  let main_v0 : FVec F S40 .f32 := Host.absf main_arg0
  let main_cst : FVec F S_ .f32 := constant S_ .f32 0x7F800000#32
  let main_v1 : FVec F S40 .f32 := broadcastInDim S40 ![] bcast_S_S40 main_cst
  let main_v2 : IVec S40 1 := cmpf .olt main_v0 main_v1
  let main_c : IVec S_ 1 := constantI S_ 1 1#1
  let main_v3 : IVec S_ 1 := (fun x v => Host.reduce IntOp.andi x v reducesTo_S40_S_d0 h_S_) main_v2 main_c
  let main_v4 : FVec F S40 .f32 := Host.absf main_arg1
  let main_cst_0 : FVec F S_ .f32 := constant S_ .f32 0x7F800000#32
  let main_v5 : FVec F S40 .f32 := broadcastInDim S40 ![] bcast_S_S40 main_cst_0
  let main_v6 : IVec S40 1 := cmpf .olt main_v4 main_v5
  let main_c_1 : IVec S_ 1 := constantI S_ 1 1#1
  let main_v7 : IVec S_ 1 := (fun x v => Host.reduce IntOp.andi x v reducesTo_S40_S_d0 h_S_) main_v6 main_c_1
  let main_v8 : IVec S_ 1 := andi main_v3 main_v7
  let main_v9 : FVec F S4x3 .f32 := Host.absf main_arg2
  let main_cst_2 : FVec F S_ .f32 := constant S_ .f32 0x7F800000#32
  let main_v10 : FVec F S4x3 .f32 := broadcastInDim S4x3 ![] bcast_S_S4x3 main_cst_2
  let main_v11 : IVec S4x3 1 := cmpf .olt main_v9 main_v10
  let main_c_3 : IVec S_ 1 := constantI S_ 1 1#1
  let main_v12 : IVec S_ 1 := (fun x v => Host.reduce IntOp.andi x v reducesTo_S4x3_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Kernel.lean ====
abbrev S40 : Shape := ⟨1, ![40]⟩
abbrev S4x3 : Shape := ⟨2, ![4, 3]⟩
abbrev S8 : Shape := ⟨1, ![8]⟩
abbrev S40x2 : Shape := ⟨2, ![40, 2]⟩
abbrev S142 : Shape := ⟨1, ![142]⟩
abbrev S_ : Shape := ⟨0, ![]⟩
abbrev S40x1 : Shape := ⟨2, ![40, 1]⟩
abbrev S40x5 : Shape := ⟨2, ![40, 5]⟩
abbrev S3x4 : Shape := ⟨2, ![3, 4]⟩
abbrev S160x2 : Shape := ⟨2, ![160, 2]⟩
abbrev S1x4 : Shape := ⟨2, ![1, 4]⟩
abbrev S40x4 : Shape := ⟨2, ![40, 4]⟩
abbrev S142x1 : Shape := ⟨2, ![142, 1]⟩
abbrev S142x2 : Shape := ⟨2, ![142, 2]⟩

abbrev nBuf : Space → Nat
  | .hbm => 71
  | .vmem => 3
  | .smem => 0
  | _ => 0

abbrev bufTy : (tb : Table) → Fin (tcTables nBuf tb) → BufTy
  | .hbm, ⟨0, _⟩ => ⟨S40, .f32⟩
  | .hbm, ⟨1, _⟩ => ⟨S40, .f32⟩
  | .hbm, ⟨2, _⟩ => ⟨S4x3, .f32⟩
  | .hbm, ⟨3, _⟩ => ⟨S8, .f32⟩
  | .hbm, ⟨4, _⟩ => ⟨S40x2, .f32⟩
  | .hbm, ⟨5, _⟩ => ⟨S40, .i32⟩
  | .hbm, ⟨6, _⟩ => ⟨S40, .i1⟩
  | .hbm, ⟨7, _⟩ => ⟨S40, .i32⟩
  | .hbm, ⟨8, _⟩ => ⟨S40, .i1⟩
  | .hbm, ⟨9, _⟩ => ⟨S40, .f32⟩
  | .hbm, ⟨10, _⟩ => ⟨S40, .i1⟩
  | .hbm, ⟨11, _⟩ => ⟨S40, .i1⟩
  | .hbm, ⟨12, _⟩ => ⟨S142, .i32⟩
  | .hbm, ⟨13, _⟩ => ⟨S_, .i32⟩
  | .hbm, ⟨14, _⟩ => ⟨S40, .i32⟩
  | .hbm, ⟨15, _⟩ => ⟨S40, .i32⟩
  | .hbm, ⟨16, _⟩ => ⟨S40, .i32⟩
  | .hbm, ⟨17, _⟩ => ⟨S40x1, .i32⟩
  | .hbm, ⟨18, _⟩ => ⟨S40, .f32⟩
  | .hbm, ⟨19, _⟩ => ⟨S_, .i32⟩
  | .hbm, ⟨20, _⟩ => ⟨S40, .i32⟩
  | .hbm, ⟨21, _⟩ => ⟨S40, .i32⟩
  | .hbm, ⟨22, _⟩ => ⟨S40, .i32⟩
  | .hbm, ⟨23, _⟩ => ⟨S40x1, .i32⟩
  | .hbm, ⟨24, _⟩ => ⟨S40, .f32⟩
  | .hbm, ⟨25, _⟩ => ⟨S40, .f32⟩
  | .hbm, ⟨26, _⟩ => ⟨S40, .f32⟩
  | .hbm, ⟨27, _⟩ => ⟨S40, .f32⟩
  | .hbm, ⟨28, _⟩ => ⟨S_, .f32⟩
  | .hbm, ⟨29, _⟩ => ⟨S_, .f32⟩
  | .hbm, ⟨30, _⟩ => ⟨S40, .f32⟩
  | .hbm, ⟨31, _⟩ => ⟨S40, .f32⟩
  | .hbm, ⟨32, _⟩ => ⟨S40, .f32⟩
  | .hbm, ⟨33, _⟩ => ⟨S_, .f32⟩
  | .hbm, ⟨34, _⟩ => ⟨S40, .f32⟩
  | .hbm, ⟨35, _⟩ => ⟨S40, .f32⟩
  | .hbm, ⟨36, _⟩ => ⟨S40, .i32⟩
  | .hbm, ⟨37, _⟩ => ⟨S_, .i32⟩
  | .hbm, ⟨38, _⟩ => ⟨S40, .i32⟩
  | .hbm, ⟨39, _⟩ => ⟨S40, .i1⟩
  | .hbm, ⟨40, _⟩ => ⟨S_, .f32⟩
  | .hbm, ⟨41, _⟩ => ⟨S_, .f32⟩
  | .hbm, ⟨42, _⟩ => ⟨S40, .f32⟩
  | .hbm, ⟨43, _⟩ => ⟨S40, .f32⟩
  | .hbm, ⟨44, _⟩ => ⟨S40x1, .i1⟩
  | .hbm, ⟨45, _⟩ => ⟨S_, .f32⟩
  | .hbm, ⟨46, _⟩ => ⟨S_, .f32⟩
  | .hbm, ⟨47, _⟩ => ⟨S40x2, .i1⟩
  | .hbm, ⟨48, _⟩ => ⟨S40x2, .f32⟩
  | .hbm, ⟨49, _⟩ => ⟨S40x2, .f32⟩
  | .hbm, ⟨50, _⟩ => ⟨S40x1, .f32⟩
  | .hbm, ⟨51, _⟩ => ⟨S40, .f32⟩
  | .hbm, ⟨52, _⟩ => ⟨S40x1, .f32⟩
  | .hbm, ⟨53, _⟩ => ⟨S40, .f32⟩
  | .hbm, ⟨54, _⟩ => ⟨S40x1, .f32⟩
  | .hbm, ⟨55, _⟩ => ⟨S40x1, .f32⟩
  | .hbm, ⟨56, _⟩ => ⟨S40x1, .f32⟩
  | .hbm, ⟨57, _⟩ => ⟨S40x1, .f32⟩
  | .hbm, ⟨58, _⟩ => ⟨S40x1, .f32⟩
  | .hbm, ⟨59, _⟩ => ⟨S40x5, .f32⟩
  | .hbm, ⟨60, _⟩ => ⟨S3x4, .f32⟩
  | .hbm, ⟨61, _⟩ => ⟨S160x2, .f32⟩
  | .hbm, ⟨62, _⟩ => ⟨S_, .i32⟩
  | .hbm, ⟨63, _⟩ => ⟨S142, .i32⟩
  | .hbm, ⟨64, _⟩ => ⟨S142, .i1⟩
  | .hbm, ⟨65, _⟩ => ⟨S_, .i32⟩
  | .hbm, ⟨66, _⟩ => ⟨S142, .i32⟩
  | .hbm, ⟨67, _⟩ => ⟨S142, .i32⟩
  | .hbm, ⟨68, _⟩ => ⟨S142, .i32⟩
  | .hbm, ⟨69, _⟩ => ⟨S142x1, .i32⟩
  | .hbm, ⟨70, _⟩ => ⟨S142x2, .f32⟩
  | .local _ .vmem, ⟨0, _⟩ => ⟨S40x5, .f32⟩
  | .local _ .vmem, ⟨1, _⟩ => ⟨S3x4, .f32⟩
  | .local _ .vmem, ⟨2, _⟩ => ⟨S160x2, .f32⟩
  | _, _ => ⟨S40, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_cst : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_7 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_8 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_cst_9 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_10 : Ref sig .tc := ⟨.hbm, 37, rfl⟩
abbrev main_v18 : Ref sig .tc := ⟨.hbm, 38, rfl⟩
abbrev main_v19 : Ref sig .tc := ⟨.hbm, 39, rfl⟩
abbrev main_cst_11 : Ref sig .tc := ⟨.hbm, 40, rfl⟩
abbrev main_call2_v0 : Ref sig .tc := ⟨.hbm, 41, rfl⟩
abbrev main_call2_v1 : Ref sig .tc := ⟨.hbm, 42, rfl⟩
abbrev main_v20 : Ref sig .tc := ⟨.hbm, 43, rfl⟩
abbrev main_v21 : Ref sig .tc := ⟨.hbm, 44, rfl⟩
abbrev main_cst_12 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_13 : Ref sig .tc := ⟨.hbm, 62, rfl⟩
abbrev main_v35 : Ref sig .tc := ⟨.hbm, 63, rfl⟩
abbrev main_v36 : Ref sig .tc := ⟨.hbm, 64, rfl⟩
abbrev main_c_14 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S40 : S_.BroadcastsInDim S40 (![] : Fin 0 → Fin S40.rank)
  bcast_S40_S40x1_0 : S40.BroadcastsInDim S40x1 (![0] : Fin 1 → Fin S40x1.rank)
  bcast_S40x1_S40x2_0_1 : S40x1.BroadcastsInDim S40x2 (![0, 1] : Fin 2 → Fin S40x2.rank)
  bcast_S_S40x2 : S_.BroadcastsInDim S40x2 (![] : Fin 0 → Fin S40x2.rank)
  slices_S40x2_S40x1_0_0 : S40x2.Slices ![0, 0] S40x1
  shapeCasts_S40x1_S40 : S40x1.ShapeCasts S40
  slices_S40x2_S40x1_0_1 : S40x2.Slices ![0, 1] S40x1
  concatenates_S40x1_S40x1_S40x1_S40x1_S40x1_S40x5_d1 : Shape.Concatenates [S40x1, S40x1, S40x1, S40x1, S40x1] S40x5 1
  transposes_S4x3_S3x4_1_0 : S4x3.Transposes [1, 0] S3x4
  inb_S40x5_S40x1_0_0 : ∀ a, (![0, 0] : Fin 2 → Nat) a + S40x1.size a ≤ S40x5.size a
  h_S40x1 : 0 < S40x1.numel
  shapeCasts_S40x1_S40x1 : S40x1.ShapeCasts S40x1
  inb_S40x5_S40x1_0_1 : ∀ a, (![0, 1] : Fin 2 → Nat) a + S40x1.size a ≤ S40x5.size a
  inb_S40x5_S40x1_0_2 : ∀ a, (![0, 2] : Fin 2 → Nat) a + S40x1.size a ≤ S40x5.size a
  inb_S40x5_S40x1_0_3 : ∀ a, (![0, 3] : Fin 2 → Nat) a + S40x1.size a ≤ S40x5.size a
  inb_S40x5_S40x1_0_4 : ∀ a, (![0, 4] : Fin 2 → Nat) a + S40x1.size a ≤ S40x5.size a
  inb_S3x4_S1x4_0_0 : ∀ a, (![0, 0] : Fin 2 → Nat) a + S1x4.size a ≤ S3x4.size a
  h_S1x4 : 0 < S1x4.numel
  shapeCasts_S1x4_S1x4 : S1x4.ShapeCasts S1x4
  inb_S3x4_S1x4_1_0 : ∀ a, (![1, 0] : Fin 2 → Nat) a + S1x4.size a ≤ S3x4.size a
  inb_S3x4_S1x4_2_0 : ∀ a, (![2, 0] : Fin 2 → Nat) a + S1x4.size a ≤ S3x4.size a
  broadcasts_S40x1_S40x4 : S40x1.Broadcasts S40x4
  broadcasts_S1x4_S40x4 : S1x4.Broadcasts S40x4
  slices_S40x4_o0_0_S40x1 : S40x4.Slices ![0, 0] S40x1
  concatenates_S40x1_S40x1_S40x2_d1 : Shape.Concatenates [S40x1, S40x1] S40x2 1
  slices_S40x4_o0_1_S40x1 : S40x4.Slices ![0, 1] S40x1
  slices_S40x4_o0_2_S40x1 : S40x4.Slices ![0, 2] S40x1
  slices_S40x4_o0_3_S40x1 : S40x4.Slices ![0, 3] S40x1
  concatenates_S40x2_S40x2_S40x2_S40x2_S160x2_d0 : Shape.Concatenates [S40x2, S40x2, S40x2, S40x2] S160x2 0
  inb_S160x2_S160x2_0_0 : ∀ a, (![0, 0] : Fin 2 → Nat) a + S160x2.size a ≤ S160x2.size a
  h_S160x2 : 0 < S160x2.numel
  bcast_S_S142 : S_.BroadcastsInDim S142 (![] : Fin 0 → Fin S142.rank)
  bcast_S142_S142x1_0 : S142.BroadcastsInDim S142x1 (![0] : Fin 1 → Fin S142x1.rank)
  gather_S8_S40x1_S40_n_0_n_n_0_1_1_wf : GatherDims.WF S8 S40x1 S40 [] [0] [] [0] [] 1 ![1]
  gather_S160x2_S142x1_S142x2_1_0_n_n_0_1_12_wf : GatherDims.WF S160x2 S142x1 S142x2 [1] [0] [] [0] [] 1 ![1, 2]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S40x5.size a ≤ S40x5.size a
  hwx0_0 : ∀ i : grid0.Coords, EltTy.bits .f32 = 32 ∨ (Rect.block (s := S40x5) S40x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x4.size a ≤ S3x4.size a
  hwx0_1 : ∀ i : grid0.Coords, EltTy.bits .f32 = 32 ∨ (Rect.block (s := S3x4) S3x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S160x2.size a ≤ S160x2.size a
  hwx0_2 : ∀ i : grid0.Coords, EltTy.bits .f32 = 32 ∨ (Rect.block (s := S160x2) S160x2.size (cc0_transform_2 i) (hinb0_2 i)).WholeWords (EltTy.packing .f32)

variable [Facts₀]

def gather_S8_S40x1_S40_n_0_n_n_0_1_1 : GatherDims S8 S40x1 S40 where
  offsetDims := []
  collapsedSliceDims := [0]
  operandBatchingDims := []
  startIndicesBatchingDims := []
  startIndexMap := [0]
  indexVectorDim := 1
  sliceSizes := ![1]
  wf := gather_S8_S40x1_S40_n_0_n_n_0_1_1_wf
def gather_S160x2_S142x1_S142x2_1_0_n_n_0_1_12 : GatherDims S160x2 S142x1 S142x2 where
  offsetDims := [1]
  collapsedSliceDims := [0]
  operandBatchingDims := []
  startIndicesBatchingDims := []
  startIndexMap := [0]
  indexVectorDim := 1
  sliceSizes := ![1, 2]
  wf := gather_S160x2_S142x1_S142x2_1_0_n_n_0_1_12_wf

abbrev win0_0 : Pipeline.Window sig grid0 :=
  Pipeline.Window.ofSpec (Memref.whole main_v32) S40x5.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v33) S3x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S160x2.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S40 : Shape := ⟨1, ![40]⟩
abbrev S4x3 : Shape := ⟨2, ![4, 3]⟩
abbrev S8 : Shape := ⟨1, ![8]⟩
abbrev S40x2 : Shape := ⟨2, ![40, 2]⟩
abbrev S142 : Shape := ⟨1, ![142]⟩
abbrev S_ : Shape := ⟨0, ![]⟩
abbrev S40x1 : Shape := ⟨2, ![40, 1]⟩
abbrev S40x1x2 : Shape := ⟨3, ![40, 1, 2]⟩
abbrev S40x2x2 : Shape := ⟨3, ![40, 2, 2]⟩
abbrev S40x3 : Shape := ⟨2, ![40, 3]⟩
abbrev S40x1x3 : Shape := ⟨3, ![40, 1, 3]⟩
abbrev S40x2x3 : Shape := ⟨3, ![40, 2, 3]⟩
abbrev S40x1x1 : Shape := ⟨3, ![40, 1, 1]⟩
abbrev S4x40x2 : Shape := ⟨3, ![4, 40, 2]⟩
abbrev S1x40x2 : Shape := ⟨3, ![1, 40, 2]⟩
abbrev S160x2 : Shape := ⟨2, ![160, 2]⟩
abbrev S142x1 : Shape := ⟨2, ![142, 1]⟩
abbrev S142x2 : Shape := ⟨2, ![142, 2]⟩

abbrev nBuf : Space → Nat
  | .hbm => 104
  | .vmem => 0
  | .smem => 0
  | _ => 0

abbrev bufTy : (tb : Table) → Fin (tcTables nBuf tb) → BufTy
  | .hbm, ⟨0, _⟩ => ⟨S40, .f32⟩
  | .hbm, ⟨1, _⟩ => ⟨S40, .f32⟩
  | .hbm, ⟨2, _⟩ => ⟨S4x3, .f32⟩
  | .hbm, ⟨3, _⟩ => ⟨S8, .f32⟩
  | .hbm, ⟨4, _⟩ => ⟨S40x2, .f32⟩
  | .hbm, ⟨5, _⟩ => ⟨S40, .i32⟩
  | .hbm, ⟨6, _⟩ => ⟨S40, .i1⟩
  | .hbm, ⟨7, _⟩ => ⟨S40, .i32⟩
  | .hbm, ⟨8, _⟩ => ⟨S40, .i1⟩
  | .hbm, ⟨9, _⟩ => ⟨S40, .f32⟩
  | .hbm, ⟨10, _⟩ => ⟨S40, .i1⟩
  | .hbm, ⟨11, _⟩ => ⟨S40, .i1⟩
  | .hbm, ⟨12, _⟩ => ⟨S142, .i32⟩
  | .hbm, ⟨13, _⟩ => ⟨S_, .i32⟩
  | .hbm, ⟨14, _⟩ => ⟨S40, .i32⟩
  | .hbm, ⟨15, _⟩ => ⟨S40, .i32⟩
  | .hbm, ⟨16, _⟩ => ⟨S40, .i32⟩
  | .hbm, ⟨17, _⟩ => ⟨S40x1, .i32⟩
  | .hbm, ⟨18, _⟩ => ⟨S40, .f32⟩
  | .hbm, ⟨19, _⟩ => ⟨S_, .i32⟩
  | .hbm, ⟨20, _⟩ => ⟨S40, .i32⟩
  | .hbm, ⟨21, _⟩ => ⟨S40, .i32⟩
  | .hbm, ⟨22, _⟩ => ⟨S40, .i32⟩
  | .hbm, ⟨23, _⟩ => ⟨S40x1, .i32⟩
  | .hbm, ⟨24, _⟩ => ⟨S40, .f32⟩
  | .hbm, ⟨25, _⟩ => ⟨S40, .f32⟩
  | .hbm, ⟨26, _⟩ => ⟨S40, .f32⟩
  | .hbm, ⟨27, _⟩ => ⟨S40, .f32⟩
  | .hbm, ⟨28, _⟩ => ⟨S_, .f32⟩
  | .hbm, ⟨29, _⟩ => ⟨S_, .f32⟩
  | .hbm, ⟨30, _⟩ => ⟨S40, .f32⟩
  | .hbm, ⟨31, _⟩ => ⟨S40, .f32⟩
  | .hbm, ⟨32, _⟩ => ⟨S40, .f32⟩
  | .hbm, ⟨33, _⟩ => ⟨S_, .f32⟩
  | .hbm, ⟨34, _⟩ => ⟨S40, .f32⟩
  | .hbm, ⟨35, _⟩ => ⟨S40, .f32⟩
  | .hbm, ⟨36, _⟩ => ⟨S_, .f32⟩
  | .hbm, ⟨37, _⟩ => ⟨S40, .f32⟩
  | .hbm, ⟨38, _⟩ => ⟨S40, .f32⟩
  | .hbm, ⟨39, _⟩ => ⟨S40, .f32⟩
  | .hbm, ⟨40, _⟩ => ⟨S40, .f32⟩
  | .hbm, ⟨41, _⟩ => ⟨S40, .f32⟩
  | .hbm, ⟨42, _⟩ => ⟨S40x1, .f32⟩
  | .hbm, ⟨43, _⟩ => ⟨S40x1, .f32⟩
  | .hbm, ⟨44, _⟩ => ⟨S40x2, .f32⟩
  | .hbm, ⟨45, _⟩ => ⟨S40x1, .f32⟩
  | .hbm, ⟨46, _⟩ => ⟨S40x1, .f32⟩
  | .hbm, ⟨47, _⟩ => ⟨S40x2, .f32⟩
  | .hbm, ⟨48, _⟩ => ⟨S40x1x2, .f32⟩
  | .hbm, ⟨49, _⟩ => ⟨S40x1x2, .f32⟩
  | .hbm, ⟨50, _⟩ => ⟨S40x2x2, .f32⟩
  | .hbm, ⟨51, _⟩ => ⟨S40, .f32⟩
  | .hbm, ⟨52, _⟩ => ⟨S40, .f32⟩
  | .hbm, ⟨53, _⟩ => ⟨S_, .f32⟩
  | .hbm, ⟨54, _⟩ => ⟨S40, .f32⟩
  | .hbm, ⟨55, _⟩ => ⟨S_, .f32⟩
  | .hbm, ⟨56, _⟩ => ⟨S40, .f32⟩
  | .hbm, ⟨57, _⟩ => ⟨S40x1, .f32⟩
  | .hbm, ⟨58, _⟩ => ⟨S40x1, .f32⟩
  | .hbm, ⟨59, _⟩ => ⟨S40x1, .f32⟩
  | .hbm, ⟨60, _⟩ => ⟨S40x3, .f32⟩
  | .hbm, ⟨61, _⟩ => ⟨S40x1, .f32⟩
  | .hbm, ⟨62, _⟩ => ⟨S40x1, .f32⟩
  | .hbm, ⟨63, _⟩ => ⟨S40x1, .f32⟩
  | .hbm, ⟨64, _⟩ => ⟨S40x3, .f32⟩
  | .hbm, ⟨65, _⟩ => ⟨S40x1x3, .f32⟩
  | .hbm, ⟨66, _⟩ => ⟨S40x1x3, .f32⟩
  | .hbm, ⟨67, _⟩ => ⟨S40x2x3, .f32⟩
  | .hbm, ⟨68, _⟩ => ⟨S40, .i32⟩
  | .hbm, ⟨69, _⟩ => ⟨S_, .i32⟩
  | .hbm, ⟨70, _⟩ => ⟨S40, .i32⟩
  | .hbm, ⟨71, _⟩ => ⟨S40, .i1⟩
  | .hbm, ⟨72, _⟩ => ⟨S_, .f32⟩
  | .hbm, ⟨73, _⟩ => ⟨S_, .f32⟩
  | .hbm, ⟨74, _⟩ => ⟨S40, .f32⟩
  | .hbm, ⟨75, _⟩ => ⟨S40, .f32⟩
  | .hbm, ⟨76, _⟩ => ⟨S40x1x1, .f32⟩
  | .hbm, ⟨77, _⟩ => ⟨S40x2x3, .f32⟩
  | .hbm, ⟨78, _⟩ => ⟨S40x2x3, .f32⟩
  | .hbm, ⟨79, _⟩ => ⟨S40x2x3, .f32⟩
  | .hbm, ⟨80, _⟩ => ⟨S40, .i32⟩
  | .hbm, ⟨81, _⟩ => ⟨S_, .i32⟩
  | .hbm, ⟨82, _⟩ => ⟨S40, .i32⟩
  | .hbm, ⟨83, _⟩ => ⟨S40, .i1⟩
  | .hbm, ⟨84, _⟩ => ⟨S40x1, .i1⟩
  | .hbm, ⟨85, _⟩ => ⟨S_, .f32⟩
  | .hbm, ⟨86, _⟩ => ⟨S_, .f32⟩
  | .hbm, ⟨87, _⟩ => ⟨S40x2, .i1⟩
  | .hbm, ⟨88, _⟩ => ⟨S40x2, .f32⟩
  | .hbm, ⟨89, _⟩ => ⟨S40x2, .f32⟩
  | .hbm, ⟨90, _⟩ => ⟨S4x40x2, .f32⟩
  | .hbm, ⟨91, _⟩ => ⟨S1x40x2, .f32⟩
  | .hbm, ⟨92, _⟩ => ⟨S4x40x2, .f32⟩
  | .hbm, ⟨93, _⟩ => ⟨S4x40x2, .f32⟩
  | .hbm, ⟨94, _⟩ => ⟨S160x2, .f32⟩
  | .hbm, ⟨95, _⟩ => ⟨S_, .i32⟩
  | .hbm, ⟨96, _⟩ => ⟨S142, .i32⟩
  | .hbm, ⟨97, _⟩ => ⟨S142, .i1⟩
  | .hbm, ⟨98, _⟩ => ⟨S_, .i32⟩
  | .hbm, ⟨99, _⟩ => ⟨S142, .i32⟩
  | .hbm, ⟨100, _⟩ => ⟨S142, .i32⟩
  | .hbm, ⟨101, _⟩ => ⟨S142, .i32⟩
  | .hbm, ⟨102, _⟩ => ⟨S142x1, .i32⟩
  | .hbm, ⟨103, _⟩ => ⟨S142x2, .f32⟩
  | _, _ => ⟨S40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_cst : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_7 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_8 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_cst_9 : Ref sig .tc := ⟨.hbm, 33, rfl⟩
abbrev main_v15 : Ref sig .tc := ⟨.hbm, 34, rfl⟩
abbrev main_v16 : Ref sig .tc := ⟨.hbm, 35, rfl⟩
abbrev main_cst_10 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_cst_12 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_call2_v0 : Ref sig .tc := ⟨.hbm, 73, rfl⟩
abbrev main_call2_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_15 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_17 : Ref sig .tc := ⟨.hbm, 95, rfl⟩
abbrev main_v64 : Ref sig .tc := ⟨.hbm, 96, rfl⟩
abbrev main_v65 : Ref sig .tc := ⟨.hbm, 97, rfl⟩
abbrev main_c_18 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]

class Facts₀ : Prop where
  bcast_S_S40 : S_.BroadcastsInDim S40 (![] : Fin 0 → Fin S40.rank)
  bcast_S40_S40x1_0 : S40.BroadcastsInDim S40x1 (![0] : Fin 1 → Fin S40x1.rank)
  concatenates_S40x1_S40x1_S40x2_d1 : Shape.Concatenates [S40x1, S40x1] S40x2 1
  bcast_S40x2_S40x1x2_0_2 : S40x2.BroadcastsInDim S40x1x2 (![0, 2] : Fin 2 → Fin S40x1x2.rank)
  concatenates_S40x1x2_S40x1x2_S40x2x2_d1 : Shape.Concatenates [S40x1x2, S40x1x2] S40x2x2 1
  concatenates_S40x1_S40x1_S40x1_S40x3_d1 : Shape.Concatenates [S40x1, S40x1, S40x1] S40x3 1
  bcast_S40x3_S40x1x3_0_2 : S40x3.BroadcastsInDim S40x1x3 (![0, 2] : Fin 2 → Fin S40x1x3.rank)
  concatenates_S40x1x3_S40x1x3_S40x2x3_d1 : Shape.Concatenates [S40x1x3, S40x1x3] S40x2x3 1
  bcast_S40_S40x1x1_0 : S40.BroadcastsInDim S40x1x1 (![0] : Fin 1 → Fin S40x1x1.rank)
  bcast_S40x1x1_S40x2x3_0_1_2 : S40x1x1.BroadcastsInDim S40x2x3 (![0, 1, 2] : Fin 3 → Fin S40x2x3.rank)
  bcast_S40x1_S40x2_0_1 : S40x1.BroadcastsInDim S40x2 (![0, 1] : Fin 2 → Fin S40x2.rank)
  bcast_S_S40x2 : S_.BroadcastsInDim S40x2 (![] : Fin 0 → Fin S40x2.rank)
  bcast_S40x2_S1x40x2_1_2 : S40x2.BroadcastsInDim S1x40x2 (![1, 2] : Fin 2 → Fin S1x40x2.rank)
  bcast_S1x40x2_S4x40x2_0_1_2 : S1x40x2.BroadcastsInDim S4x40x2 (![0, 1, 2] : Fin 3 → Fin S4x40x2.rank)
  shapeCasts_S4x40x2_S160x2 : S4x40x2.ShapeCasts S160x2
  bcast_S_S142 : S_.BroadcastsInDim S142 (![] : Fin 0 → Fin S142.rank)
  bcast_S142_S142x1_0 : S142.BroadcastsInDim S142x1 (![0] : Fin 1 → Fin S142x1.rank)
  gather_S8_S40x1_S40_n_0_n_n_0_1_1_wf : GatherDims.WF S8 S40x1 S40 [] [0] [] [0] [] 1 ![1]
  dot_S40x2x2_S40x2x3_S40x2x3_2_1_1_2_0_0_wf : DotDims.WF S40x2x2 S40x2x3 S40x2x3 [2] [1] [1] [2] [0] [0]
  dot_S4x3_S40x2x3_S4x40x2_1_2_0_01_n_n_wf : DotDims.WF S4x3 S40x2x3 S4x40x2 [1] [2] [0] [0, 1] [] []
  gather_S160x2_S142x1_S142x2_1_0_n_n_0_1_12_wf : GatherDims.WF S160x2 S142x1 S142x2 [1] [0] [] [0] [] 1 ![1, 2]

variable [Facts₀]

def gather_S8_S40x1_S40_n_0_n_n_0_1_1 : GatherDims S8 S40x1 S40 where
  offsetDims := []
  collapsedSliceDims := [0]
  operandBatchingDims := []
  startIndicesBatchingDims := []
  startIndexMap := [0]
  indexVectorDim := 1
  sliceSizes := ![1]
  wf := gather_S8_S40x1_S40_n_0_n_n_0_1_1_wf
def dot_S40x2x2_S40x2x3_S40x2x3_2_1_1_2_0_0 : DotDims S40x2x2 S40x2x3 S40x2x3 where
  lhsContracting := [2]
  rhsContracting := [1]
  lhsNonContracting := [1]
  rhsNonContracting := [2]
  lhsBatch := [0]
  rhsBatch := [0]
  wf := dot_S40x2x2_S40x2x3_S40x2x3_2_1_1_2_0_0_wf
def dot_S4x3_S40x2x3_S4x40x2_1_2_0_01_n_n : DotDims S4x3 S40x2x3 S4x40x2 where
  lhsContracting := [1]
  rhsContracting := [2]
  lhsNonContracting := [0]
  rhsNonContracting := [0, 1]
  lhsBatch := []
  rhsBatch := []
  wf := dot_S4x3_S40x2x3_S4x40x2_1_2_0_01_n_n_wf
def gather_S160x2_S142x1_S142x2_1_0_n_n_0_1_12 : GatherDims S160x2 S142x1 S142x2 where
  offsetDims := [1]
  collapsedSliceDims := [0]
  operandBatchingDims := []
  startIndicesBatchingDims := []
  startIndexMap := [0]
  indexVectorDim := 1
  sliceSizes := ![1, 2]
  wf := gather_S160x2_S142x1_S142x2_1_0_n_n_0_1_12_wf

class Facts : Prop extends Facts₀ where

variable [Facts]
-- ==== Proof.KernelStored.lean ====
/-
  The kernel body's one store, as a function of its two input blocks: the 40×5 per-view table `x0` (columns:
  rotation angle, tilt angle, magnification, the two offsets) is read through five column rectangles, the 3×4
  array `x1` of marker coordinates through three row rectangles, and the stored 160×2 value is the body's
  arithmetic of those eight loads.
-/
import proofs.«141354_j19318762897522_2_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-- Column `k` of the table, all 40 rows. -/
abbrev rT0 : Rect S40x5 := Rect.unit (s := S40x5) ![0, 0] S40x1.size inb_S40x5_S40x1_0_0
abbrev rT1 : Rect S40x5 := Rect.unit (s := S40x5) ![0, 1] S40x1.size inb_S40x5_S40x1_0_1
abbrev rT2 : Rect S40x5 := Rect.unit (s := S40x5) ![0, 2] S40x1.size inb_S40x5_S40x1_0_2
abbrev rT3 : Rect S40x5 := Rect.unit (s := S40x5) ![0, 3] S40x1.size inb_S40x5_S40x1_0_3
abbrev rT4 : Rect S40x5 := Rect.unit (s := S40x5) ![0, 4] S40x1.size inb_S40x5_S40x1_0_4
/-- Row `k` of the coordinates, all 4 markers. -/
abbrev rX0 : Rect S3x4 := Rect.unit (s := S3x4) ![0, 0] S1x4.size inb_S3x4_S1x4_0_0
abbrev rX1 : Rect S3x4 := Rect.unit (s := S3x4) ![1, 0] S1x4.size inb_S3x4_S1x4_1_0
abbrev rX2 : Rect S3x4 := Rect.unit (s := S3x4) ![2, 0] S1x4.size inb_S3x4_S1x4_2_0
/-- The whole output block. -/
abbrev rOut : Rect S160x2 := Rect.unit (s := S160x2) ![0, 0] S160x2.size inb_S160x2_S160x2_0_0

/-- What the body stores, from the two input blocks. -/
def stored (x0 : Vec F S40x5 .f32) (x1 : Vec F S3x4 .f32) : FVec F S160x2 .f32 :=
  k0_pay1 (k0_pay5 (View.ld x0 rT3)) (k0_pay6 (View.ld x0 rT4))
    (k0_pay11 (View.ld x0 rT0) (View.ld x0 rT1) (View.ld x0 rT2))
    (k0_pay12 (View.ld x0 rT0) (View.ld x0 rT1) (View.ld x0 rT2))
    (k0_pay13 (View.ld x0 rT0) (View.ld x0 rT2))
    (k0_pay14 (View.ld x0 rT0) (View.ld x0 rT1) (View.ld x0 rT2))
    (k0_pay15 (View.ld x1 rX0)) (k0_pay16 (View.ld x1 rX1)) (k0_pay17 (View.ld x1 rX2))
    (k0_pay18 (View.ld x0 rT0) (View.ld x0 rT1) (View.ld x0 rT2) (View.ld x1 rX0) (View.ld x1 rX1))

end Cert.Kernel.Hand

end
-- ==== Proof.KernelFrame.lean ====
/-
  The frame of `Kernel`, at any float instance: @main is eight stretches of host operations (the per-view table
  built column by column and the transposed marker coordinates), the one kernel region on a grid of one point,
  and nine host operations after it (the selection of 142 of the 160 rows).

  The region finds each array as the host operations before it left it (`V`); its three windows are whole arrays
  (the table, the coordinates, the result), so a window's block at the one grid point is the array. The body
  loads columns of the table and rows of the coordinates, computes, and overwrites the whole output block with
  `stored` of the two input blocks (`sound_kernel`). With the region's invariant left untouched this gives the
  library's frame run around a region followed by host operations (`run_main`): every execution terminates,
  the result array holds what the point wrote back, and every other buffer is what the later operations make
  of it. No host operation writes an argument array, so the arguments end as launched (`frame`).
-/
import proofs.«141354_j19318762897522_2_alg».proof.Proof.Gen.Kernel.Launch
import proofs.«141354_j19318762897522_2_alg».proof.Proof.Gen.Kernel.Skeleton
import proofs.«141354_j19318762897522_2_alg».proof.Proof.Gen.Kernel.Points
import proofs.«141354_j19318762897522_2_alg».proof.Proof.KernelStored
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev pre : List (List (HloOp τ sig (Elt F))) := [hostOps0, hostOps0_1, hostOps0_2, hostOps0_3, hostOps0_4, hostOps0_5, hostOps0_6, hostOps0_7]

/-- Core `c`'s buffer contents when the region is entered: the host operations before it, folded over the launch
    contents. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's three arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over `V` whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over `V` whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run of proof data over `V`, the frame claim: each argument array is no array of the region and is
    written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c))⟩) h

/-! ## What the body leaves in the output window's buffer -/

/-- The output block after the body: its one store, of the whole block. -/
def out0_2 (x0 : Vec F S40x5 .f32) (x1 : Vec F S3x4 .f32) : Vec F S160x2 .f32 :=
  View.canon [⟨rOut, stored x0 x1⟩]

/-- The store covers the block. -/
theorem cover0_2 (p0 : Vec F S160x2 .f32) (y : S160x2.Idx) :
    ∃ pc ∈ ([⟨rOut, p0⟩] : List (View.Piece (Elt F) S160x2 .f32)), y ∈ pc.1.set :=
  View.cover_of_tiled [⟨rOut, p0⟩] S160x2.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel (c : Dev nD) (E : Set ℕ) (i : grid0.Coords) (arg1 : Memref sig .tc .vmem S40x5 .f32) (harg1 : arg1.IsWhole) (arg2 : Memref sig .tc .vmem S3x4 .f32) (harg2 : arg2.IsWhole) (arg3 : Memref sig .tc .vmem S160x2 .f32) (harg3 : arg3.IsWhole)
    (x0 : Vec F S40x5 .f32) (x1 : Vec F S3x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the one pipeline on core `c`: the arrays as the region finds them; after the body each
    input's buffer at its block and the output's at `out0_2` of the input blocks; the region's invariant untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; each array of the region
    then holds what the proof data says and every other unscoped buffer what the later operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KernelIdealStored.lean ====
/-
  The kernel body's one store, as a function of its two input blocks: the 40×5 per-view table `x0` (columns:
  rotation angle, tilt angle, magnification, the two offsets) is read through five column rectangles, the 3×4
  array `x1` of marker coordinates through three row rectangles, and the stored 160×2 value is the body's
  arithmetic of those eight loads.
-/
import proofs.«141354_j19318762897522_2_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-- Column `k` of the table, all 40 rows. -/
abbrev rT0 : Rect S40x5 := Rect.unit (s := S40x5) ![0, 0] S40x1.size inb_S40x5_S40x1_0_0
abbrev rT1 : Rect S40x5 := Rect.unit (s := S40x5) ![0, 1] S40x1.size inb_S40x5_S40x1_0_1
abbrev rT2 : Rect S40x5 := Rect.unit (s := S40x5) ![0, 2] S40x1.size inb_S40x5_S40x1_0_2
abbrev rT3 : Rect S40x5 := Rect.unit (s := S40x5) ![0, 3] S40x1.size inb_S40x5_S40x1_0_3
abbrev rT4 : Rect S40x5 := Rect.unit (s := S40x5) ![0, 4] S40x1.size inb_S40x5_S40x1_0_4
/-- Row `k` of the coordinates, all 4 markers. -/
abbrev rX0 : Rect S3x4 := Rect.unit (s := S3x4) ![0, 0] S1x4.size inb_S3x4_S1x4_0_0
abbrev rX1 : Rect S3x4 := Rect.unit (s := S3x4) ![1, 0] S1x4.size inb_S3x4_S1x4_1_0
abbrev rX2 : Rect S3x4 := Rect.unit (s := S3x4) ![2, 0] S1x4.size inb_S3x4_S1x4_2_0
/-- The whole output block. -/
abbrev rOut : Rect S160x2 := Rect.unit (s := S160x2) ![0, 0] S160x2.size inb_S160x2_S160x2_0_0

/-- What the body stores, from the two input blocks. -/
def stored (x0 : Vec F S40x5 .f32) (x1 : Vec F S3x4 .f32) : FVec F S160x2 .f32 :=
  k0_pay1 (k0_pay5 (View.ld x0 rT3)) (k0_pay6 (View.ld x0 rT4))
    (k0_pay11 (View.ld x0 rT0) (View.ld x0 rT1) (View.ld x0 rT2))
    (k0_pay12 (View.ld x0 rT0) (View.ld x0 rT1) (View.ld x0 rT2))
    (k0_pay13 (View.ld x0 rT0) (View.ld x0 rT2))
    (k0_pay14 (View.ld x0 rT0) (View.ld x0 rT1) (View.ld x0 rT2))
    (k0_pay15 (View.ld x1 rX0)) (k0_pay16 (View.ld x1 rX1)) (k0_pay17 (View.ld x1 rX2))
    (k0_pay18 (View.ld x0 rT0) (View.ld x0 rT1) (View.ld x0 rT2) (View.ld x1 rX0) (View.ld x1 rX1))

end Cert.KernelIdeal.Hand

end
-- ==== Proof.KernelIdealFrame.lean ====
/-
  The frame of `KernelIdeal`, at any float instance: @main is eight stretches of host operations (the per-view table
  built column by column and the transposed marker coordinates), the one kernel region on a grid of one point,
  and nine host operations after it (the selection of 142 of the 160 rows).

  The region finds each array as the host operations before it left it (`V`); its three windows are whole arrays
  (the table, the coordinates, the result), so a window's block at the one grid point is the array. The body
  loads columns of the table and rows of the coordinates, computes, and overwrites the whole output block with
  `stored` of the two input blocks (`sound_kernel`). With the region's invariant left untouched this gives the
  library's frame run around a region followed by host operations (`run_main`): every execution terminates,
  the result array holds what the point wrote back, and every other buffer is what the later operations make
  of it. No host operation writes an argument array, so the arguments end as launched (`frame`).
-/
import proofs.«141354_j19318762897522_2_alg».proof.Proof.Gen.KernelIdeal.Launch
import proofs.«141354_j19318762897522_2_alg».proof.Proof.Gen.KernelIdeal.Skeleton
import proofs.«141354_j19318762897522_2_alg».proof.Proof.Gen.KernelIdeal.Points
import proofs.«141354_j19318762897522_2_alg».proof.Proof.KernelIdealStored
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev pre : List (List (HloOp τ sig (Elt F))) := [hostOps0, hostOps0_1, hostOps0_2, hostOps0_3, hostOps0_4, hostOps0_5, hostOps0_6, hostOps0_7]

/-- Core `c`'s buffer contents when the region is entered: the host operations before it, folded over the launch
    contents. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's three arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over `V` whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over `V` whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run of proof data over `V`, the frame claim: each argument array is no array of the region and is
    written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c))⟩) h

/-! ## What the body leaves in the output window's buffer -/

/-- The output block after the body: its one store, of the whole block. -/
def out0_2 (x0 : Vec F S40x5 .f32) (x1 : Vec F S3x4 .f32) : Vec F S160x2 .f32 :=
  View.canon [⟨rOut, stored x0 x1⟩]

/-- The store covers the block. -/
theorem cover0_2 (p0 : Vec F S160x2 .f32) (y : S160x2.Idx) :
    ∃ pc ∈ ([⟨rOut, p0⟩] : List (View.Piece (Elt F) S160x2 .f32)), y ∈ pc.1.set :=
  View.cover_of_tiled [⟨rOut, p0⟩] S160x2.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel (c : Dev nD) (E : Set ℕ) (i : grid0.Coords) (arg1 : Memref sig .tc .vmem S40x5 .f32) (harg1 : arg1.IsWhole) (arg2 : Memref sig .tc .vmem S3x4 .f32) (harg2 : arg2.IsWhole) (arg3 : Memref sig .tc .vmem S160x2 .f32) (harg3 : arg3.IsWhole)
    (x0 : Vec F S40x5 .f32) (x1 : Vec F S3x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the one pipeline on core `c`: the arrays as the region finds them; after the body each
    input's buffer at its block and the output's at `out0_2` of the input blocks; the region's invariant untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; each array of the region
    then holds what the proof data says and every other unscoped buffer what the later operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Spec.lean ====
/-
  The value both programs compute, stated once over plain functions of coordinates.

  For each of 40 views `v` there is a rotation angle `rot v` (in degrees), a tilt angle `tr v` (already in
  radians), a magnification `me v` and an offset `oe v p` (p = 0, 1); for each of 4 markers `m` its three
  coordinates `xyz m k`. With R the plane rotation by `rot v · π/180` and T the 2×3 tilt matrix
  [[cos t, 0, sin t], [0, 1, 0]], the image of marker `m` in view `v` is `me v · (R T) · xyz m + oe v`. The two rows
  of `me · R T` are written out entry by entry (`uv`), the way the kernel evaluates them; row `r = 40 m + v` of the
  160×2 result holds the image of marker `m` in view `v` (`full`, `G`).
  Everything is on the extended reals; the angle factor is the real number denoted by the single-precision word
  of π/180 that both programs print.
-/
import Idealize.ShloMosaic.PureOps.Ideal
import Idealize.ShloMosaic.Lib.ValueIdx

noncomputable section

namespace Cert.Spec

open Idealize.ShloMosaic Idealize.ShloMosaic.ValueIdx

/-- The single-precision word nearest to π/180, as the real number it denotes. -/
def d2r : EReal := Ideal.ofBits .f32 0x3C8EFA35#32

/-- Component `p` of the image of marker `m` in view `v`: row `p` of `me · R(rot) · T(tr)` applied to the marker's
    coordinates, plus the view's offset; the six matrix entries in closed form. -/
def uv (rot tr me : Fin 40 → EReal) (oe : Fin 40 → Fin 2 → EReal) (xyz : Fin 4 → Fin 3 → EReal)
    (m : Fin 4) (v : Fin 40) (p : Fin 2) : EReal :=
  match p with
  | ⟨0, _⟩ =>
    me v * Ideal.cos (rot v * d2r) * Ideal.cos (tr v) * xyz m 0
      + (0 - me v) * Ideal.sin (rot v * d2r) * xyz m 1
      + me v * Ideal.cos (rot v * d2r) * Ideal.sin (tr v) * xyz m 2
      + oe v 0
  | ⟨1, _⟩ =>
    me v * Ideal.sin (rot v * d2r) * Ideal.cos (tr v) * xyz m 0
      + me v * Ideal.cos (rot v * d2r) * xyz m 1
      + me v * Ideal.sin (rot v * d2r) * Ideal.sin (tr v) * xyz m 2
      + oe v 1

/-- Row `r = 40 m + v` of the 160×2 result is the image of marker `m` in view `v`. -/
def full (rot tr me : Fin 40 → EReal) (oe : Fin 40 → Fin 2 → EReal) (xyz : Fin 4 → Fin 3 → EReal)
    (r : Fin 160) (p : Fin 2) : EReal :=
  uv rot tr me oe xyz ⟨r.val / 40, by omega⟩ ⟨r.val % 40, Nat.mod_lt _ (by decide)⟩ p

/-- The same as one array of shape [160, 2], of the five arrays of shapes [40], [40], [40], [40, 2], [4, 3]. -/
def G (rot tr me : (⟨1, ![40]⟩ : Shape).Idx → EReal) (oe : (⟨2, ![40, 2]⟩ : Shape).Idx → EReal)
    (xyz : (⟨2, ![4, 3]⟩ : Shape).Idx → EReal) : (⟨2, ![160, 2]⟩ : Shape).Idx → EReal :=
  fun i => full (fun v => rot (ix1 v)) (fun v => tr (ix1 v)) (fun v => me (ix1 v)) (fun v p => oe (ix2 v p))
    (fun m k => xyz (ix2 m k)) (i 0) (i 1)

theorem G_apply (rot tr me : (⟨1, ![40]⟩ : Shape).Idx → EReal) (oe : (⟨2, ![40, 2]⟩ : Shape).Idx → EReal)
    (xyz : (⟨2, ![4, 3]⟩ : Shape).Idx → EReal) (r : Fin 160) (p : Fin 2) :
    G rot tr me oe xyz (ix2 r p) = full (fun v => rot (ix1 v)) (fun v => tr (ix1 v)) (fun v => me (ix1 v))
      (fun v p => oe (ix2 v p)) (fun m k => xyz (ix2 m k)) r p := rfl

end Cert.Spec

end
-- ==== Proof.KernelIdealHost.lean ====
/-
  The host side of `KernelIdeal` as named functions of the argument arrays: the per-view tilt angle in radians
  (`tiltRad`: the two neighbouring check-list angles gathered by constant index tables, interpolated with a
  constant table of fractions, −15 at view 14, the exact angle at a check-list view, times the π/180 word), the
  magnification and the offset with view 0 reset (`magEff`, `offEff`), the 40×5 table of the five per-view columns
  (`table`), the transposed coordinates (`xyzT`), and the selection of 142 of the 160 result rows (`keep`).
  Each is exactly the composition of the printed host operations that computes it; nothing here looks inside.
-/
import proofs.«141354_j19318762897522_2_alg».proof.Proof.Gen.KernelIdeal

noncomputable section

namespace Cert.KernelIdeal.Hand

open Idealize.ShloMosaic Idealize.SL.Sem Cert.KernelIdeal Cert.KernelIdeal.Gen

variable {F : FTy → Type} [FloatOps F]

/-- The lower neighbour's angle of each view: the tilt angles gathered at the first constant index table. -/
def tiltLo (t : (⟨S8, .f32⟩ : BufTy).Contents (Elt F)) : (⟨S40, .f32⟩ : BufTy).Contents (Elt F) :=
  Host.gather gather_S8_S40x1_S40_n_0_n_n_0_1_1 t
    (broadcastInDim S40x1 ![0] bcast_S40_S40x1_0
      (select (constantI S40 1 0#1 : (⟨S40, .i1⟩ : BufTy).Contents (Elt F))
        (addi (fun i => lit0 (S40.rowMajor i) : (⟨S40, .i32⟩ : BufTy).Contents (Elt F)) (broadcastInDim S40 ![] bcast_S_S40 (constantI S_ 32 8#32 : (⟨S_, .i32⟩ : BufTy).Contents (Elt F))))
        (fun i => lit0 (S40.rowMajor i) : (⟨S40, .i32⟩ : BufTy).Contents (Elt F))))

/-- The upper neighbour's angle: the same with the second index table. -/
def tiltHi (t : (⟨S8, .f32⟩ : BufTy).Contents (Elt F)) : (⟨S40, .f32⟩ : BufTy).Contents (Elt F) :=
  Host.gather gather_S8_S40x1_S40_n_0_n_n_0_1_1 t
    (broadcastInDim S40x1 ![0] bcast_S40_S40x1_0
      (select (constantI S40 1 0#1 : (⟨S40, .i1⟩ : BufTy).Contents (Elt F))
        (addi (fun i => lit1 (S40.rowMajor i) : (⟨S40, .i32⟩ : BufTy).Contents (Elt F)) (broadcastInDim S40 ![] bcast_S_S40 (constantI S_ 32 8#32 : (⟨S_, .i32⟩ : BufTy).Contents (Elt F))))
        (fun i => lit1 (S40.rowMajor i) : (⟨S40, .i32⟩ : BufTy).Contents (Elt F))))

/-- The per-view tilt angle, in radians. -/
def tiltRad (t : (⟨S8, .f32⟩ : BufTy).Contents (Elt F)) : (⟨S40, .f32⟩ : BufTy).Contents (Elt F) :=
  mulf
    (select (fun i => lit3 (S40.rowMajor i) : (⟨S40, .i1⟩ : BufTy).Contents (Elt F)) (tiltLo t)
      (select (fun i => lit4 (S40.rowMajor i) : (⟨S40, .i1⟩ : BufTy).Contents (Elt F))
        (broadcastInDim S40 ![] bcast_S_S40 (id (constant S_ .f32 0xC1700000#32 : (⟨S_, .f32⟩ : BufTy).Contents (Elt F))))
        (addf (tiltLo t) (mulf (subf (tiltHi t) (tiltLo t)) (fun i => FloatOps.ofBits .f32 (lit2 (S40.rowMajor i)))))))
    (broadcastInDim S40 ![] bcast_S_S40 (constant S_ .f32 0x3C8EFA35#32 : (⟨S_, .f32⟩ : BufTy).Contents (Elt F)))

/-- Which view is view 0. -/
def isView0 : (⟨S40, .i1⟩ : BufTy).Contents (Elt F) :=
  cmpi .eq (iotaInDim S40 32 0 : (⟨S40, .i32⟩ : BufTy).Contents (Elt F)) (broadcastInDim S40 ![] bcast_S_S40 (constantI S_ 32 0#32 : (⟨S_, .i32⟩ : BufTy).Contents (Elt F)))

/-- The magnification, 1 at view 0. -/
def magEff (mag : (⟨S40, .f32⟩ : BufTy).Contents (Elt F)) : (⟨S40, .f32⟩ : BufTy).Contents (Elt F) :=
  select (isView0 (F := F)) (broadcastInDim S40 ![] bcast_S_S40 (id (constant S_ .f32 0x3F800000#32 : (⟨S_, .f32⟩ : BufTy).Contents (Elt F)))) mag

/-- The offset, 0 at view 0. -/
def offEff (off : (⟨S40x2, .f32⟩ : BufTy).Contents (Elt F)) : (⟨S40x2, .f32⟩ : BufTy).Contents (Elt F) :=
  select (broadcastInDim S40x2 ![0, 1] bcast_S40x1_S40x2_0_1 (broadcastInDim S40x1 ![0] bcast_S40_S40x1_0 (isView0 (F := F))))
    (broadcastInDim S40x2 ![] bcast_S_S40x2 (id (constant S_ .f32 0x00000000#32 : (⟨S_, .f32⟩ : BufTy).Contents (Elt F)))) off

/-- The rows kept: 142 of the 160 rows of the full result, gathered by a constant table of row numbers. -/
def keep (x : (⟨S160x2, .f32⟩ : BufTy).Contents (Elt F)) : (⟨S142x2, .f32⟩ : BufTy).Contents (Elt F) :=
  Host.gather gather_S160x2_S142x1_S142x2_1_0_n_n_0_1_12 x
    (broadcastInDim S142x1 ![0] bcast_S142_S142x1_0
      (select
        (cmpi .slt (fun i => lit5 (S142.rowMajor i) : (⟨S142, .i32⟩ : BufTy).Contents (Elt F)) (broadcastInDim S142 ![] bcast_S_S142 (constantI S_ 32 0#32 : (⟨S_, .i32⟩ : BufTy).Contents (Elt F))))
        (addi (fun i => lit5 (S142.rowMajor i) : (⟨S142, .i32⟩ : BufTy).Contents (Elt F)) (broadcastInDim S142 ![] bcast_S_S142 (constantI S_ 32 160#32 : (⟨S_, .i32⟩ : BufTy).Contents (Elt F))))
        (fun i => lit5 (S142.rowMajor i) : (⟨S142, .i32⟩ : BufTy).Contents (Elt F))))

/-- The 40×5 per-view table: rotation angle, tilt angle, magnification, and the two offset components, each a
    column. -/
def table (rot tr me : (⟨S40, .f32⟩ : BufTy).Contents (Elt F)) (oe : (⟨S40x2, .f32⟩ : BufTy).Contents (Elt F)) :
    (⟨S40x5, .f32⟩ : BufTy).Contents (Elt F) :=
  concatenate S40x5 1
    [⟨S40x1, broadcastInDim S40x1 ![0] bcast_S40_S40x1_0 rot⟩,
     ⟨S40x1, broadcastInDim S40x1 ![0] bcast_S40_S40x1_0 tr⟩,
     ⟨S40x1, broadcastInDim S40x1 ![0] bcast_S40_S40x1_0 me⟩,
     ⟨S40x1, broadcastInDim S40x1 ![0] bcast_S40_S40x1_0 (shapeCast S40 (extractStridedSlice S40x1 ![0, 0] oe slices_S40x2_S40x1_0_0) shapeCasts_S40x1_S40)⟩,
     ⟨S40x1, broadcastInDim S40x1 ![0] bcast_S40_S40x1_0 (shapeCast S40 (extractStridedSlice S40x1 ![0, 1] oe slices_S40x2_S40x1_0_1) shapeCasts_S40x1_S40)⟩]
    concatenates_S40x1_S40x1_S40x1_S40x1_S40x1_S40x5_d1

/-- The marker coordinates transposed: row `k` holds coordinate `k` of the four markers. -/
def xyzT (xyz : (⟨S4x3, .f32⟩ : BufTy).Contents (Elt F)) : (⟨S3x4, .f32⟩ : BufTy).Contents (Elt F) :=
  transpose S3x4 [1, 0] xyz transposes_S4x3_S3x4_1_0

end Cert.KernelIdeal.Hand

end
-- ==== Proof.LibNaryResult.lean ====
/-
  A host operation with three or five literal operand buffers (a concatenation of three or five arrays), read
  at its result buffer: the operation's function applied to the operands' contents, each AT ITS OWN BUFFER — the
  family written out as `Fin.cons`es, so that each operand's contents can in turn be rewritten to what the
  operation before it left there. (Under the binder of the general statement, `fun k => V (xs k)`, the buffer
  `xs k` is no literal and nothing rewrites it.) The library states the four-operand case in this form; these are
  the three- and five-operand cases, and `after_results_n`, the one-pass reading of a fold of host operations at a
  buffer with the two added.
-/
import Idealize.ShloMosaic.Lib.StableHlo.Run

noncomputable section

namespace Idealize.ShloMosaic.StableHlo

open Idealize.SL Idealize.SL.Sem

variable {nD : Nat} {τ : Topo} {sig : RefSig} {Val : EltTy → Type}
variable {x a b c e y : Ref sig .tc}

/-- Three literal operands. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Five literal operands. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- A fold of host operations read at a buffer, in one pass, each operation's result at its own buffer and at any
    other what was there; a three-, four- or five-operand operation with each operand at its own buffer. -/
macro "after_results_n" : tactic =>
  `(tactic| (simp (disch := decide) only [after_cons, after_nil,
      nullary_result', unary_result', binary_result', ternary_result', quaternary_result', reshape_result',
      nary3_result', nary4_result', nary5_result',
      nullary_result_ne', unary_result_ne', binary_result_ne', ternary_result_ne', quaternary_result_ne', reshape_result_ne',
      nary_result_ne']))

end Idealize.ShloMosaic.StableHlo

end
-- ==== Proof.KernelIdealRun.lean ====
/-
  The value of `KernelIdeal`'s run, at any float instance. The region finds its first array at `table` of the
  rotation angles and the host chains of the other per-view arguments, and its second at the transposed marker
  coordinates (the host operations before the region, read one at a time). Each window's block at the one grid
  point is its whole array, so after the run the result array is `stored` of those two arrays; the host
  operations after the region gather its 142 kept rows into the result buffer.
-/
import proofs.«141354_j19318762897522_2_alg».proof.Proof.KernelIdealFrame
import proofs.«141354_j19318762897522_2_alg».proof.Proof.KernelIdealHost
import proofs.«141354_j19318762897522_2_alg».proof.Proof.LibNaryResult
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## What the region finds -/

set_option maxHeartbeats 4000000 in
/-- The table as the region finds it. -/
theorem V_table (c : Dev nD) :
    V m c main_v32 = table (m ((c : Thread nD τ).loc main_arg0)) (tiltRad (m ((c : Thread nD τ).loc main_arg3)))
      (magEff (m ((c : Thread nD τ).loc main_arg1))) (offEff (m ((c : Thread nD τ).loc main_arg4))) := by
  dsimp only [V, V0, pre]
  simp only [hostOps0, hostOps0_1, hostOps0_2, hostOps0_3, hostOps0_4, hostOps0_5, hostOps0_6, hostOps0_7, List.flatten_cons, List.flatten_nil, List.append_nil, List.cons_append, List.nil_append]
  after_results_n
  rfl

set_option maxHeartbeats 4000000 in
/-- The transposed coordinates as the region finds them. -/
theorem V_xyzT (c : Dev nD) : V m c main_v33 = xyzT (m ((c : Thread nD τ).loc main_arg2)) := by
  dsimp only [V, V0, pre]
  simp only [hostOps0, hostOps0_1, hostOps0_2, hostOps0_3, hostOps0_4, hostOps0_5, hostOps0_6, hostOps0_7, List.flatten_cons, List.flatten_nil, List.append_nil, List.cons_append, List.nil_append]
  after_results_n
  rfl

set_option maxHeartbeats 4000000 in
/-- The constant table of kept row numbers as the region finds it. -/
theorem V_c5 (c : Dev nD) : V m c main_c_5 = fun i => lit5 (S142.rowMajor i) := by
  dsimp only [V, V0, pre]
  simp only [hostOps0, hostOps0_1, hostOps0_2, hostOps0_3, hostOps0_4, hostOps0_5, hostOps0_6, hostOps0_7, List.flatten_cons, List.flatten_nil, List.append_nil, List.cons_append, List.nil_append]
  after_results_n
  rfl

/-! ## The result array after the run -/

theorem hz : (![0, 0] : Fin 2 → Nat) = fun _ => 0 := funext fun a => by fin_cases a <;> rfl

/-- Every window's block index is zero on both axes at every grid point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the point writes back is the block of `stored` of the two input arrays as the region finds them. -/
theorem flushed2_eq (c : Dev nD) (t : Fin cfg0.N) :
    (dats m 0 c).flushed 2 t = ((cfg0.win 2).blk t).view.read (Elt F) (stored (V m c main_v32) (V m c main_v33)) := by
  show (cfg0.win 2).cut (grid0.coords t) ((dats m 0 c).after 2 t) = _
  rw [after0_2]
  unfold out0_2
  rw [View.canon_unit_zero hz]
  obtain ⟨e0, e1, e2, e3, e4, e5⟩ := idx_facts t
  have h0 : iblk m c 0 t = V m c main_v32 := by
    funext j
    show V m c main_v32 (((cfg0.win 0).blk t).view.emb j) = V m c main_v32 j
    refine congrArg _ ?_
    funext a; apply Fin.ext
    match a with
    | ⟨0, _⟩ => show win0_0.index t (0 : Fin 2) * 40 + 1 * (j 0).val = (j 0).val; omega
    | ⟨1, _⟩ => show win0_0.index t (1 : Fin 2) * 5 + 1 * (j 1).val = (j 1).val; omega
  have h1 : iblk m c 1 t = V m c main_v33 := by
    funext j
    show V m c main_v33 (((cfg0.win 1).blk t).view.emb j) = V m c main_v33 j
    refine congrArg _ ?_
    funext a; apply Fin.ext
    match a with
    | ⟨0, _⟩ => show win0_1.index t (0 : Fin 2) * 3 + 1 * (j 0).val = (j 0).val; omega
    | ⟨1, _⟩ => show win0_1.index t (1 : Fin 2) * 4 + 1 * (j 1).val = (j 1).val; omega
  rw [h0, h1]
  funext j
  show stored (V m c main_v32) (V m c main_v33) j = stored (V m c main_v32) (V m c main_v33) (((cfg0.win 2).blk t).view.emb j)
  refine congrArg _ ?_
  funext a; apply Fin.ext
  match a with
  | ⟨0, _⟩ => show (j 0).val = win0_2.index t (0 : Fin 2) * 160 + 1 * (j 0).val; omega
  | ⟨1, _⟩ => show (j 1).val = win0_2.index t (1 : Fin 2) * 2 + 1 * (j 1).val; omega

/-- An index of the result array is in the point's block iff each coordinate is in the block's range. -/
theorem mem_blk2 (t : Fin cfg0.N) (i : S160x2.Idx) :
    i ∈ ((cfg0.win 2).blk t).view.set ↔ ∀ a : Fin 2, win0_2.index t a * S160x2.size a ≤ (i a).val ∧ (i a).val < win0_2.index t a * S160x2.size a + S160x2.size a := by
  show i ∈ ((View.whole main_v34).slice (win0_2.rect t)).set ↔ _
  rw [View.set_slice_whole, Rect.mem_set_unit]
  exact Iff.rfl

/-- The one block is the whole array. -/
theorem cover2 (i : S160x2.Idx) : ∃ t : Fin cfg0.N, (cfg0.win 2).flush t = true ∧ i ∈ ((cfg0.win 2).blk t).view.set := by
  refine ⟨t0_0, flush0_2 t0_0, ?_⟩
  rw [mem_blk2]
  obtain ⟨e0, e1, e2, e3, e4, e5⟩ := idx_facts t0_0
  have hi0 : (i 0).val < 160 := (i 0).isLt
  have hi1 : (i 1).val < 2 := (i 1).isLt
  intro a
  match a with
  | ⟨0, _⟩ => show win0_2.index t0_0 (0 : Fin 2) * 160 ≤ (i 0).val ∧ (i 0).val < win0_2.index t0_0 (0 : Fin 2) * 160 + 160; omega
  | ⟨1, _⟩ => show win0_2.index t0_0 (1 : Fin 2) * 2 ≤ (i 1).val ∧ (i 1).val < win0_2.index t0_0 (1 : Fin 2) * 2 + 2; omega

/-- The result array after the run. -/
theorem final2 (c : Dev nD) : (dats m 0 c).arrAt 2 cfg0.N = stored (V m c main_v32) (V m c main_v33) :=
  (dats m 0 c).arrAt_eq_of_cover 2 _ (fun t _ => flushed2_eq m c t) (cover2)

/-! ## The host operations after the region -/

/-- The rows kept of `x`, by the table of row numbers `k`. -/
def keepWith (x : (⟨S160x2, .f32⟩ : BufTy).Contents (Elt F)) (k : (⟨S142, .i32⟩ : BufTy).Contents (Elt F)) : (⟨S142x2, .f32⟩ : BufTy).Contents (Elt F) :=
  Host.gather gather_S160x2_S142x1_S142x2_1_0_n_n_0_1_12 x
    (broadcastInDim S142x1 ![0] bcast_S142_S142x1_0
      (select
        (cmpi .slt k (broadcastInDim S142 ![] bcast_S_S142 (constantI S_ 32 0#32 : (⟨S_, .i32⟩ : BufTy).Contents (Elt F))))
        (addi k (broadcastInDim S142 ![] bcast_S_S142 (constantI S_ 32 160#32 : (⟨S_, .i32⟩ : BufTy).Contents (Elt F))))
        k))

set_option maxHeartbeats 4000000 in
/-- The nine operations after the region, from any contents: the result buffer ends at the kept rows of the full
    result array, by the table of row numbers as found. -/
theorem tail_fold (W : Valuation τ sig (Elt F)) :
    StableHlo.after hostOps1 W (Proc.devRef .tc main_v41) = keepWith (W (Proc.devRef .tc main_v34)) (W (Proc.devRef .tc main_c_5)) := by
  after_results_n
  rfl

/-- The result buffer after the run. -/
theorem tail_eq (c : Dev nD) :
    Pipeline.afterTail₀ cfgs (dats m) 0 (V0 m) [hostOps1] c main_v41 = keep ((dats m 0 c).arrAt 2 cfg0.N) := by
  unfold Pipeline.afterTail₀
  show StableHlo.after hostOps1 _ (Proc.devRef .tc main_v41) = _
  refine (tail_fold _).trans ?_
  have e1 := Pipeline.withArrays_arr spec0 launch0.win.arr_inj c (V0 m c) (fun w => (dats m 0 c).arrAt w cfg0.N) 2
  have e2 := (Pipeline.withArrays_of_ne spec0 c (V0 m c) (fun w => (dats m 0 c).arrAt w cfg0.N) main_c_5 (by decide)).trans (V_c5 m c)
  exact congrArg₂ keepWith e1 e2

/-! ## The run, read -/

/-- The frame run re-posted: the result buffer at the kept rows of `stored` of the table and the transposed
    coordinates, the arguments unchanged. -/
theorem run_value : θ_run defs (onTc (τ := τ) (main (F := F))) ⟨m, fun _ => 0, ρ⟩ fun r => ∀ c : Dev nD,
      r.2.mem ((c.tc : Thread nD τ).loc main_v41)
        = keep (stored (table (m ((c.tc : Thread nD τ).loc main_arg0)) (tiltRad (m ((c.tc : Thread nD τ).loc main_arg3)))
            (magEff (m ((c.tc : Thread nD τ).loc main_arg1))) (offEff (m ((c.tc : Thread nD τ).loc main_arg4))))
            (xyzT (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v41 (Pipeline.mem_restRefs_of main_v41 (by decide) (by decide))).trans
        ((tail_eq m c).trans (by rw [final2, V_table, V_xyzT])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefRun.lean ====
/-
  The reference program's @main as the list of its 99 host operations, in order — the four calls of the
  outlined `where` functions written out at their call sites over the calls' own buffers —, and its run: every
  weakly fair execution terminates, and every buffer then holds the fold of those operations over the launch
  contents.
-/
import proofs.«141354_j19318762897522_2_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.nullary main_c (fun i => lit0 (S40.rowMajor i)),
    StableHlo.nullary main_c_0 (constantI S40 1 0#1),
    StableHlo.nullary main_c_1 (fun i => lit1 (S40.rowMajor i)),
    StableHlo.nullary main_c_2 (constantI S40 1 0#1),
    StableHlo.nullary main_cst (fun i => FloatOps.ofBits .f32 (lit2 (S40.rowMajor i))),
    StableHlo.nullary main_c_3 (fun i => lit3 (S40.rowMajor i)),
    StableHlo.nullary main_c_4 (fun i => lit4 (S40.rowMajor i)),
    StableHlo.nullary main_c_5 (fun i => lit5 (S142.rowMajor i)),
    StableHlo.nullary main_c_6 (constantI S_ 32 8#32),
    StableHlo.unary main_c_6 main_v0 (broadcastInDim S40 ![] bcast_S_S40 : (⟨S_, .i32⟩ : BufTy).Contents (Elt F) → (⟨S40, .i32⟩ : BufTy).Contents (Elt F)),
    StableHlo.binary main_c main_v0 main_v1 (addi : (⟨S40, .i32⟩ : BufTy).Contents (Elt F) → (⟨S40, .i32⟩ : BufTy).Contents (Elt F) → (⟨S40, .i32⟩ : BufTy).Contents (Elt F)),
    StableHlo.ternary main_c_0 main_v1 main_c main_v2 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.unary main_v2 main_v3 (broadcastInDim S40x1 ![0] bcast_S40_S40x1_0 : (⟨S40, .i32⟩ : BufTy).Contents (Elt F) → (⟨S40x1, .i32⟩ : BufTy).Contents (Elt F)),
    StableHlo.binary main_arg3 main_v3 main_v4 ((fun x i => Host.gather gather_S8_S40x1_S40_n_0_n_n_0_1_1 x i) : (⟨S8, .f32⟩ : BufTy).Contents (Elt F) → (⟨S40x1, .i32⟩ : BufTy).Contents (Elt F) → (⟨S40, .f32⟩ : BufTy).Contents (Elt F)),
    StableHlo.nullary main_c_7 (constantI S_ 32 8#32),
    StableHlo.unary main_c_7 main_v5 (broadcastInDim S40 ![] bcast_S_S40 : (⟨S_, .i32⟩ : BufTy).Contents (Elt F) → (⟨S40, .i32⟩ : BufTy).Contents (Elt F)),
    StableHlo.binary main_c_1 main_v5 main_v6 (addi : (⟨S40, .i32⟩ : BufTy).Contents (Elt F) → (⟨S40, .i32⟩ : BufTy).Contents (Elt F) → (⟨S40, .i32⟩ : BufTy).Contents (Elt F)),
    StableHlo.ternary main_c_2 main_v6 main_c_1 main_v7 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.unary main_v7 main_v8 (broadcastInDim S40x1 ![0] bcast_S40_S40x1_0 : (⟨S40, .i32⟩ : BufTy).Contents (Elt F) → (⟨S40x1, .i32⟩ : BufTy).Contents (Elt F)),
    StableHlo.binary main_arg3 main_v8 main_v9 ((fun x i => Host.gather gather_S8_S40x1_S40_n_0_n_n_0_1_1 x i) : (⟨S8, .f32⟩ : BufTy).Contents (Elt F) → (⟨S40x1, .i32⟩ : BufTy).Contents (Elt F) → (⟨S40, .f32⟩ : BufTy).Contents (Elt F)),
    StableHlo.binary main_v9 main_v4 main_v10 (subf : (⟨S40, .f32⟩ : BufTy).Contents (Elt F) → (⟨S40, .f32⟩ : BufTy).Contents (Elt F) → (⟨S40, .f32⟩ : BufTy).Contents (Elt F)),
    StableHlo.binary main_v10 main_cst main_v11 (mulf : (⟨S40, .f32⟩ : BufTy).Contents (Elt F) → (⟨S40, .f32⟩ : BufTy).Contents (Elt F) → (⟨S40, .f32⟩ : BufTy).Contents (Elt F)),
    StableHlo.binary main_v4 main_v11 main_v12 (addf : (⟨S40, .f32⟩ : BufTy).Contents (Elt F) → (⟨S40, .f32⟩ : BufTy).Contents (Elt F) → (⟨S40, .f32⟩ : BufTy).Contents (Elt F)),
    StableHlo.nullary main_cst_8 (constant S_ .f32 0xC1700000#32),
    StableHlo.TRef.unary (.of main_cst_8 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S40, .f32⟩) (broadcastInDim S40 ![] bcast_S_S40),
    StableHlo.TRef.ternary (.of main_c_4 : StableHlo.TRef sig ⟨S40, .i1⟩) (.of main_call0_v1 : StableHlo.TRef sig ⟨S40, .f32⟩) (.of main_v12 : StableHlo.TRef sig ⟨S40, .f32⟩) (.of main_v13 : StableHlo.TRef sig ⟨S40, .f32⟩) select,
    StableHlo.TRef.ternary (.of main_c_3 : StableHlo.TRef sig ⟨S40, .i1⟩) (.of main_v4 : StableHlo.TRef sig ⟨S40, .f32⟩) (.of main_v13 : StableHlo.TRef sig ⟨S40, .f32⟩) (.of main_v14 : StableHlo.TRef sig ⟨S40, .f32⟩) select,
    StableHlo.nullary main_cst_9 (constant S_ .f32 0x3C8EFA35#32),
    StableHlo.unary main_cst_9 main_v15 (broadcastInDim S40 ![] bcast_S_S40 : (⟨S_, .f32⟩ : BufTy).Contents (Elt F) → (⟨S40, .f32⟩ : BufTy).Contents (Elt F)),
    StableHlo.binary main_v14 main_v15 main_v16 (mulf : (⟨S40, .f32⟩ : BufTy).Contents (Elt F) → (⟨S40, .f32⟩ : BufTy).Contents (Elt F) → (⟨S40, .f32⟩ : BufTy).Contents (Elt F)),
    StableHlo.nullary main_cst_10 (constant S_ .f32 0x3C8EFA35#32),
    StableHlo.unary main_cst_10 main_v17 (broadcastInDim S40 ![] bcast_S_S40 : (⟨S_, .f32⟩ : BufTy).Contents (Elt F) → (⟨S40, .f32⟩ : BufTy).Contents (Elt F)),
    StableHlo.binary main_arg0 main_v17 main_v18 (mulf : (⟨S40, .f32⟩ : BufTy).Contents (Elt F) → (⟨S40, .f32⟩ : BufTy).Contents (Elt F) → (⟨S40, .f32⟩ : BufTy).Contents (Elt F)),
    StableHlo.unary main_v18 main_v19 (Host.cos : (⟨S40, .f32⟩ : BufTy).Contents (Elt F) → (⟨S40, .f32⟩ : BufTy).Contents (Elt F)),
    StableHlo.unary main_v18 main_v20 (Host.sin : (⟨S40, .f32⟩ : BufTy).Contents (Elt F) → (⟨S40, .f32⟩ : BufTy).Contents (Elt F)),
    StableHlo.unary main_v20 main_v21 (Host.negf : (⟨S40, .f32⟩ : BufTy).Contents (Elt F) → (⟨S40, .f32⟩ : BufTy).Contents (Elt F)),
    StableHlo.unary main_v19 main_v22 (broadcastInDim S40x1 ![0] bcast_S40_S40x1_0 : (⟨S40, .f32⟩ : BufTy).Contents (Elt F) → (⟨S40x1, .f32⟩ : BufTy).Contents (Elt F)),
    StableHlo.unary main_v21 main_v23 (broadcastInDim S40x1 ![0] bcast_S40_S40x1_0 : (⟨S40, .f32⟩ : BufTy).Contents (Elt F) → (⟨S40x1, .f32⟩ : BufTy).Contents (Elt F)),
    StableHlo.binary main_v22 main_v23 main_v24 ((fun a b => concatenate S40x2 1 [⟨S40x1, a⟩, ⟨S40x1, b⟩] concatenates_S40x1_S40x1_S40x2_d1) : (⟨S40x1, .f32⟩ : BufTy).Contents (Elt F) → (⟨S40x1, .f32⟩ : BufTy).Contents (Elt F) → (⟨S40x2, .f32⟩ : BufTy).Contents (Elt F)),
    StableHlo.unary main_v20 main_v25 (broadcastInDim S40x1 ![0] bcast_S40_S40x1_0 : (⟨S40, .f32⟩ : BufTy).Contents (Elt F) → (⟨S40x1, .f32⟩ : BufTy).Contents (Elt F)),
    StableHlo.unary main_v19 main_v26 (broadcastInDim S40x1 ![0] bcast_S40_S40x1_0 : (⟨S40, .f32⟩ : BufTy).Contents (Elt F) → (⟨S40x1, .f32⟩ : BufTy).Contents (Elt F)),
    StableHlo.binary main_v25 main_v26 main_v27 ((fun a b => concatenate S40x2 1 [⟨S40x1, a⟩, ⟨S40x1, b⟩] concatenates_S40x1_S40x1_S40x2_d1) : (⟨S40x1, .f32⟩ : BufTy).Contents (Elt F) → (⟨S40x1, .f32⟩ : BufTy).Contents (Elt F) → (⟨S40x2, .f32⟩ : BufTy).Contents (Elt F)),
    StableHlo.unary main_v24 main_v28 (broadcastInDim S40x1x2 ![0, 2] bcast_S40x2_S40x1x2_0_2 : (⟨S40x2, .f32⟩ : BufTy).Contents (Elt F) → (⟨S40x1x2, .f32⟩ : BufTy).Contents (Elt F)),
    StableHlo.unary main_v27 main_v29 (broadcastInDim S40x1x2 ![0, 2] bcast_S40x2_S40x1x2_0_2 : (⟨S40x2, .f32⟩ : BufTy).Contents (Elt F) → (⟨S40x1x2, .f32⟩ : BufTy).Contents (Elt F)),
    StableHlo.binary main_v28 main_v29 main_v30 ((fun a b => concatenate S40x2x2 1 [⟨S40x1x2, a⟩, ⟨S40x1x2, b⟩] concatenates_S40x1x2_S40x1x2_S40x2x2_d1) : (⟨S40x1x2, .f32⟩ : BufTy).Contents (Elt F) → (⟨S40x1x2, .f32⟩ : BufTy).Contents (Elt F) → (⟨S40x2x2, .f32⟩ : BufTy).Contents (Elt F)),
    StableHlo.unary main_v16 main_v31 (Host.cos : (⟨S40, .f32⟩ : BufTy).Contents (Elt F) → (⟨S40, .f32⟩ : BufTy).Contents (Elt F)),
    StableHlo.unary main_v16 main_v32 (Host.sin : (⟨S40, .f32⟩ : BufTy).Contents (Elt F) → (⟨S40, .f32⟩ : BufTy).Contents (Elt F)),
    StableHlo.nullary main_cst_11 (constant S_ .f32 0x00000000#32),
    StableHlo.unary main_cst_11 main_v33 (broadcastInDim S40 ![] bcast_S_S40 : (⟨S_, .f32⟩ : BufTy).Contents (Elt F) → (⟨S40, .f32⟩ : BufTy).Contents (Elt F)),
    StableHlo.nullary main_cst_12 (constant S_ .f32 0x3F800000#32),
    StableHlo.unary main_cst_12 main_v34 (broadcastInDim S40 ![] bcast_S_S40 : (⟨S_, .f32⟩ : BufTy).Contents (Elt F) → (⟨S40, .f32⟩ : BufTy).Contents (Elt F)),
    StableHlo.unary main_v31 main_v35 (broadcastInDim S40x1 ![0] bcast_S40_S40x1_0 : (⟨S40, .f32⟩ : BufTy).Contents (Elt F) → (⟨S40x1, .f32⟩ : BufTy).Contents (Elt F)),
    StableHlo.unary main_v33 main_v36 (broadcastInDim S40x1 ![0] bcast_S40_S40x1_0 : (⟨S40, .f32⟩ : BufTy).Contents (Elt F) → (⟨S40x1, .f32⟩ : BufTy).Contents (Elt F)),
    StableHlo.unary main_v32 main_v37 (broadcastInDim S40x1 ![0] bcast_S40_S40x1_0 : (⟨S40, .f32⟩ : BufTy).Contents (Elt F) → (⟨S40x1, .f32⟩ : BufTy).Contents (Elt F)),
    StableHlo.nary ![main_v35, main_v36, main_v37] main_v38 (fun u => concatenate S40x3 1 [⟨S40x1, u 0⟩, ⟨S40x1, u 1⟩, ⟨S40x1, u 2⟩] concatenates_S40x1_S40x1_S40x1_S40x3_d1),
    StableHlo.unary main_v33 main_v39 (broadcastInDim S40x1 ![0] bcast_S40_S40x1_0 : (⟨S40, .f32⟩ : BufTy).Contents (Elt F) → (⟨S40x1, .f32⟩ : BufTy).Contents (Elt F)),
    StableHlo.unary main_v34 main_v40 (broadcastInDim S40x1 ![0] bcast_S40_S40x1_0 : (⟨S40, .f32⟩ : BufTy).Contents (Elt F) → (⟨S40x1, .f32⟩ : BufTy).Contents (Elt F)),
    StableHlo.unary main_v33 main_v41 (broadcastInDim S40x1 ![0] bcast_S40_S40x1_0 : (⟨S40, .f32⟩ : BufTy).Contents (Elt F) → (⟨S40x1, .f32⟩ : BufTy).Contents (Elt F)),
    StableHlo.nary ![main_v39, main_v40, main_v41] main_v42 (fun u => concatenate S40x3 1 [⟨S40x1, u 0⟩, ⟨S40x1, u 1⟩, ⟨S40x1, u 2⟩] concatenates_S40x1_S40x1_S40x1_S40x3_d1),
    StableHlo.unary main_v38 main_v43 (broadcastInDim S40x1x3 ![0, 2] bcast_S40x3_S40x1x3_0_2 : (⟨S40x3, .f32⟩ : BufTy).Contents (Elt F) → (⟨S40x1x3, .f32⟩ : BufTy).Contents (Elt F)),
    StableHlo.unary main_v42 main_v44 (broadcastInDim S40x1x3 ![0, 2] bcast_S40x3_S40x1x3_0_2 : (⟨S40x3, .f32⟩ : BufTy).Contents (Elt F) → (⟨S40x1x3, .f32⟩ : BufTy).Contents (Elt F)),
    StableHlo.binary main_v43 main_v44 main_v45 ((fun a b => concatenate S40x2x3 1 [⟨S40x1x3, a⟩, ⟨S40x1x3, b⟩] concatenates_S40x1x3_S40x1x3_S40x2x3_d1) : (⟨S40x1x3, .f32⟩ : BufTy).Contents (Elt F) → (⟨S40x1x3, .f32⟩ : BufTy).Contents (Elt F) → (⟨S40x2x3, .f32⟩ : BufTy).Contents (Elt F)),
    StableHlo.nullary main_v46 (iotaInDim S40 32 0),
    StableHlo.nullary main_c_13 (constantI S_ 32 0#32),
    StableHlo.unary main_c_13 main_v47 (broadcastInDim S40 ![] bcast_S_S40 : (⟨S_, .i32⟩ : BufTy).Contents (Elt F) → (⟨S40, .i32⟩ : BufTy).Contents (Elt F)),
    StableHlo.binary main_v46 main_v47 main_v48 (cmpi .eq : (⟨S40, .i32⟩ : BufTy).Contents (Elt F) → (⟨S40, .i32⟩ : BufTy).Contents (Elt F) → (⟨S40, .i1⟩ : BufTy).Contents (Elt F)),
    StableHlo.nullary main_cst_14 (constant S_ .f32 0x3F800000#32),
    StableHlo.TRef.unary (.of main_cst_14 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S40, .f32⟩) (broadcastInDim S40 ![] bcast_S_S40),
    StableHlo.TRef.ternary (.of main_v48 : StableHlo.TRef sig ⟨S40, .i1⟩) (.of main_call2_v1 : StableHlo.TRef sig ⟨S40, .f32⟩) (.of main_arg1 : StableHlo.TRef sig ⟨S40, .f32⟩) (.of main_v49 : StableHlo.TRef sig ⟨S40, .f32⟩) select,
    StableHlo.unary main_v49 main_v50 (broadcastInDim S40x1x1 ![0] bcast_S40_S40x1x1_0 : (⟨S40, .f32⟩ : BufTy).Contents (Elt F) → (⟨S40x1x1, .f32⟩ : BufTy).Contents (Elt F)),
    StableHlo.binary main_v30 main_v45 main_v51 ((fun l r => Host.dotGeneral dot_S40x2x2_S40x2x3_S40x2x3_2_1_1_2_0_0 none l r) : (⟨S40x2x2, .f32⟩ : BufTy).Contents (Elt F) → (⟨S40x2x3, .f32⟩ : BufTy).Contents (Elt F) → (⟨S40x2x3, .f32⟩ : BufTy).Contents (Elt F)),
    StableHlo.unary main_v50 main_v52 (broadcastInDim S40x2x3 ![0, 1, 2] bcast_S40x1x1_S40x2x3_0_1_2 : (⟨S40x1x1, .f32⟩ : BufTy).Contents (Elt F) → (⟨S40x2x3, .f32⟩ : BufTy).Contents (Elt F)),
    StableHlo.binary main_v52 main_v51 main_v53 (mulf : (⟨S40x2x3, .f32⟩ : BufTy).Contents (Elt F) → (⟨S40x2x3, .f32⟩ : BufTy).Contents (Elt F) → (⟨S40x2x3, .f32⟩ : BufTy).Contents (Elt F)),
    StableHlo.nullary main_v54 (iotaInDim S40 32 0),
    StableHlo.nullary main_c_15 (constantI S_ 32 0#32),
    StableHlo.unary main_c_15 main_v55 (broadcastInDim S40 ![] bcast_S_S40 : (⟨S_, .i32⟩ : BufTy).Contents (Elt F) → (⟨S40, .i32⟩ : BufTy).Contents (Elt F)),
    StableHlo.binary main_v54 main_v55 main_v56 (cmpi .eq : (⟨S40, .i32⟩ : BufTy).Contents (Elt F) → (⟨S40, .i32⟩ : BufTy).Contents (Elt F) → (⟨S40, .i1⟩ : BufTy).Contents (Elt F)),
    StableHlo.unary main_v56 main_v57 (broadcastInDim S40x1 ![0] bcast_S40_S40x1_0 : (⟨S40, .i1⟩ : BufTy).Contents (Elt F) → (⟨S40x1, .i1⟩ : BufTy).Contents (Elt F)),
    StableHlo.nullary main_cst_16 (constant S_ .f32 0x00000000#32),
    StableHlo.TRef.unary (.of main_cst_16 : StableHlo.TRef sig ⟨S_, .f32⟩) (.of main_call3_v0 : StableHlo.TRef sig ⟨S_, .f32⟩) id,
    StableHlo.TRef.unary (.of main_v57 : StableHlo.TRef sig ⟨S40x1, .i1⟩) (.of main_call3_v1 : StableHlo.TRef sig ⟨S40x2, .i1⟩) (broadcastInDim S40x2 ![0, 1] bcast_S40x1_S40x2_0_1),
    StableHlo.TRef.unary (.of main_call3_v0 : StableHlo.TRef sig ⟨S_, .f32⟩) (.of main_call3_v2 : StableHlo.TRef sig ⟨S40x2, .f32⟩) (broadcastInDim S40x2 ![] bcast_S_S40x2),
    StableHlo.TRef.ternary (.of main_call3_v1 : StableHlo.TRef sig ⟨S40x2, .i1⟩) (.of main_call3_v2 : StableHlo.TRef sig ⟨S40x2, .f32⟩) (.of main_arg4 : StableHlo.TRef sig ⟨S40x2, .f32⟩) (.of main_v58 : StableHlo.TRef sig ⟨S40x2, .f32⟩) select,
    StableHlo.binary main_arg2 main_v53 main_v59 ((fun l r => Host.dotGeneral dot_S4x3_S40x2x3_S4x40x2_1_2_0_01_n_n none l r) : (⟨S4x3, .f32⟩ : BufTy).Contents (Elt F) → (⟨S40x2x3, .f32⟩ : BufTy).Contents (Elt F) → (⟨S4x40x2, .f32⟩ : BufTy).Contents (Elt F)),
    StableHlo.unary main_v58 main_v60 (broadcastInDim S1x40x2 ![1, 2] bcast_S40x2_S1x40x2_1_2 : (⟨S40x2, .f32⟩ : BufTy).Contents (Elt F) → (⟨S1x40x2, .f32⟩ : BufTy).Contents (Elt F)),
    StableHlo.unary main_v60 main_v61 (broadcastInDim S4x40x2 ![0, 1, 2] bcast_S1x40x2_S4x40x2_0_1_2 : (⟨S1x40x2, .f32⟩ : BufTy).Contents (Elt F) → (⟨S4x40x2, .f32⟩ : BufTy).Contents (Elt F)),
    StableHlo.binary main_v59 main_v61 main_v62 (addf : (⟨S4x40x2, .f32⟩ : BufTy).Contents (Elt F) → (⟨S4x40x2, .f32⟩ : BufTy).Contents (Elt F) → (⟨S4x40x2, .f32⟩ : BufTy).Contents (Elt F)),
    StableHlo.reshape main_v62 main_v63 rfl shapeCasts_S4x40x2_S160x2,
    StableHlo.nullary main_c_17 (constantI S_ 32 0#32),
    StableHlo.unary main_c_17 main_v64 (broadcastInDim S142 ![] bcast_S_S142 : (⟨S_, .i32⟩ : BufTy).Contents (Elt F) → (⟨S142, .i32⟩ : BufTy).Contents (Elt F)),
    StableHlo.binary main_c_5 main_v64 main_v65 (cmpi .slt : (⟨S142, .i32⟩ : BufTy).Contents (Elt F) → (⟨S142, .i32⟩ : BufTy).Contents (Elt F) → (⟨S142, .i1⟩ : BufTy).Contents (Elt F)),
    StableHlo.nullary main_c_18 (constantI S_ 32 160#32),
    StableHlo.unary main_c_18 main_v66 (broadcastInDim S142 ![] bcast_S_S142 : (⟨S_, .i32⟩ : BufTy).Contents (Elt F) → (⟨S142, .i32⟩ : BufTy).Contents (Elt F)),
    StableHlo.binary main_c_5 main_v66 main_v67 (addi : (⟨S142, .i32⟩ : BufTy).Contents (Elt F) → (⟨S142, .i32⟩ : BufTy).Contents (Elt F) → (⟨S142, .i32⟩ : BufTy).Contents (Elt F)),
    StableHlo.ternary main_v65 main_v67 main_c_5 main_v68 (select : (⟨S142, .i1⟩ : BufTy).Contents (Elt F) → (⟨S142, .i32⟩ : BufTy).Contents (Elt F) → (⟨S142, .i32⟩ : BufTy).Contents (Elt F) → (⟨S142, .i32⟩ : BufTy).Contents (Elt F)),
    StableHlo.unary main_v68 main_v69 (broadcastInDim S142x1 ![0] bcast_S142_S142x1_0 : (⟨S142, .i32⟩ : BufTy).Contents (Elt F) → (⟨S142x1, .i32⟩ : BufTy).Contents (Elt F)),
    StableHlo.binary main_v63 main_v69 main_v70 ((fun x i => Host.gather gather_S160x2_S142x1_S142x2_1_0_n_n_0_1_12 x i) : (⟨S160x2, .f32⟩ : BufTy).Contents (Elt F) → (⟨S142x1, .i32⟩ : BufTy).Contents (Elt F) → (⟨S142x2, .f32⟩ : BufTy).Contents (Elt F)) ]

/-- @main is that straight line: its two windows and the outlined functions unfold, and the sequencing
    re-associates, by computation (checked by definitional unfolding). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., unary_bufs_sub .., ternary_bufs_sub .., ternary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., nullary_bufs_sub .., unary_bufs_sub .., unary_bufs_sub .., unary_bufs_sub .., unary_bufs_sub .., nary_bufs_sub .., unary_bufs_sub .., unary_bufs_sub .., unary_bufs_sub .., nary_bufs_sub .., unary_bufs_sub .., unary_bufs_sub .., binary_bufs_sub .., nullary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., nullary_bufs_sub .., unary_bufs_sub .., binary_bufs_sub .., unary_bufs_sub .., nullary_bufs_sub .., unary_bufs_sub .., unary_bufs_sub .., unary_bufs_sub .., ternary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

/-- From any memory with zero counters every weakly fair execution of @main terminates, and every buffer ends at
    the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefHost.lean ====
/-
  The host side of `ReferenceIdeal` as named functions of the argument arrays: the per-view tilt angle in radians
  (`tiltRad`: the two neighbouring check-list angles gathered by constant index tables, interpolated with a
  constant table of fractions, −15 at view 14, the exact angle at a check-list view, times the π/180 word), the
  magnification and the offset with view 0 reset (`magEff`, `offEff`), the 40×5 table of the five per-view columns
  (`table`), the transposed coordinates (`xyzT`), and the selection of 142 of the 160 result rows (`keep`).
  Each is exactly the composition of the printed host operations that computes it; nothing here looks inside.
-/
import proofs.«141354_j19318762897522_2_alg».proof.Proof.Gen.ReferenceIdeal

noncomputable section

namespace Cert.ReferenceIdeal.Hand

open Idealize.ShloMosaic Idealize.SL.Sem Cert.ReferenceIdeal Cert.ReferenceIdeal.Gen

variable {F : FTy → Type} [FloatOps F]

/-- The lower neighbour's angle of each view: the tilt angles gathered at the first constant index table. -/
def tiltLo (t : (⟨S8, .f32⟩ : BufTy).Contents (Elt F)) : (⟨S40, .f32⟩ : BufTy).Contents (Elt F) :=
  Host.gather gather_S8_S40x1_S40_n_0_n_n_0_1_1 t
    (broadcastInDim S40x1 ![0] bcast_S40_S40x1_0
      (select (constantI S40 1 0#1 : (⟨S40, .i1⟩ : BufTy).Contents (Elt F))
        (addi (fun i => lit0 (S40.rowMajor i) : (⟨S40, .i32⟩ : BufTy).Contents (Elt F)) (broadcastInDim S40 ![] bcast_S_S40 (constantI S_ 32 8#32 : (⟨S_, .i32⟩ : BufTy).Contents (Elt F))))
        (fun i => lit0 (S40.rowMajor i) : (⟨S40, .i32⟩ : BufTy).Contents (Elt F))))

/-- The upper neighbour's angle: the same with the second index table. -/
def tiltHi (t : (⟨S8, .f32⟩ : BufTy).Contents (Elt F)) : (⟨S40, .f32⟩ : BufTy).Contents (Elt F) :=
  Host.gather gather_S8_S40x1_S40_n_0_n_n_0_1_1 t
    (broadcastInDim S40x1 ![0] bcast_S40_S40x1_0
      (select (constantI S40 1 0#1 : (⟨S40, .i1⟩ : BufTy).Contents (Elt F))
        (addi (fun i => lit1 (S40.rowMajor i) : (⟨S40, .i32⟩ : BufTy).Contents (Elt F)) (broadcastInDim S40 ![] bcast_S_S40 (constantI S_ 32 8#32 : (⟨S_, .i32⟩ : BufTy).Contents (Elt F))))
        (fun i => lit1 (S40.rowMajor i) : (⟨S40, .i32⟩ : BufTy).Contents (Elt F))))

/-- The per-view tilt angle, in radians. -/
def tiltRad (t : (⟨S8, .f32⟩ : BufTy).Contents (Elt F)) : (⟨S40, .f32⟩ : BufTy).Contents (Elt F) :=
  mulf
    (select (fun i => lit3 (S40.rowMajor i) : (⟨S40, .i1⟩ : BufTy).Contents (Elt F)) (tiltLo t)
      (select (fun i => lit4 (S40.rowMajor i) : (⟨S40, .i1⟩ : BufTy).Contents (Elt F))
        (broadcastInDim S40 ![] bcast_S_S40 (id (constant S_ .f32 0xC1700000#32 : (⟨S_, .f32⟩ : BufTy).Contents (Elt F))))
        (addf (tiltLo t) (mulf (subf (tiltHi t) (tiltLo t)) (fun i => FloatOps.ofBits .f32 (lit2 (S40.rowMajor i)))))))
    (broadcastInDim S40 ![] bcast_S_S40 (constant S_ .f32 0x3C8EFA35#32 : (⟨S_, .f32⟩ : BufTy).Contents (Elt F)))

/-- Which view is view 0. -/
def isView0 : (⟨S40, .i1⟩ : BufTy).Contents (Elt F) :=
  cmpi .eq (iotaInDim S40 32 0 : (⟨S40, .i32⟩ : BufTy).Contents (Elt F)) (broadcastInDim S40 ![] bcast_S_S40 (constantI S_ 32 0#32 : (⟨S_, .i32⟩ : BufTy).Contents (Elt F)))

/-- The magnification, 1 at view 0. -/
def magEff (mag : (⟨S40, .f32⟩ : BufTy).Contents (Elt F)) : (⟨S40, .f32⟩ : BufTy).Contents (Elt F) :=
  select (isView0 (F := F)) (broadcastInDim S40 ![] bcast_S_S40 (id (constant S_ .f32 0x3F800000#32 : (⟨S_, .f32⟩ : BufTy).Contents (Elt F)))) mag

/-- The offset, 0 at view 0. -/
def offEff (off : (⟨S40x2, .f32⟩ : BufTy).Contents (Elt F)) : (⟨S40x2, .f32⟩ : BufTy).Contents (Elt F) :=
  select (broadcastInDim S40x2 ![0, 1] bcast_S40x1_S40x2_0_1 (broadcastInDim S40x1 ![0] bcast_S40_S40x1_0 (isView0 (F := F))))
    (broadcastInDim S40x2 ![] bcast_S_S40x2 (id (constant S_ .f32 0x00000000#32 : (⟨S_, .f32⟩ : BufTy).Contents (Elt F)))) off

/-- The rows kept: 142 of the 160 rows of the full result, gathered by a constant table of row numbers. -/
def keep (x : (⟨S160x2, .f32⟩ : BufTy).Contents (Elt F)) : (⟨S142x2, .f32⟩ : BufTy).Contents (Elt F) :=
  Host.gather gather_S160x2_S142x1_S142x2_1_0_n_n_0_1_12 x
    (broadcastInDim S142x1 ![0] bcast_S142_S142x1_0
      (select
        (cmpi .slt (fun i => lit5 (S142.rowMajor i) : (⟨S142, .i32⟩ : BufTy).Contents (Elt F)) (broadcastInDim S142 ![] bcast_S_S142 (constantI S_ 32 0#32 : (⟨S_, .i32⟩ : BufTy).Contents (Elt F))))
        (addi (fun i => lit5 (S142.rowMajor i) : (⟨S142, .i32⟩ : BufTy).Contents (Elt F)) (broadcastInDim S142 ![] bcast_S_S142 (constantI S_ 32 160#32 : (⟨S_, .i32⟩ : BufTy).Contents (Elt F))))
        (fun i => lit5 (S142.rowMajor i) : (⟨S142, .i32⟩ : BufTy).Contents (Elt F))))

/-- The reference's full 160×2 result from the per-view quantities and the marker coordinates: the rotation
    matrices [40, 2, 2] and the tilt matrices [40, 2, 3] assembled entry by entry by concatenation, multiplied view
    by view, scaled by the magnification, contracted with the coordinates, offset, and re-laid as rows
    `40·marker + view`. -/
def mid (rot tr me : (⟨S40, .f32⟩ : BufTy).Contents (Elt F)) (oe : (⟨S40x2, .f32⟩ : BufTy).Contents (Elt F))
    (xyz : (⟨S4x3, .f32⟩ : BufTy).Contents (Elt F)) : (⟨S160x2, .f32⟩ : BufTy).Contents (Elt F) :=
  have v18 : (⟨S40, .f32⟩ : BufTy).Contents (Elt F) := mulf rot (broadcastInDim S40 ![] bcast_S_S40 (constant S_ .f32 0x3C8EFA35#32 : (⟨S_, .f32⟩ : BufTy).Contents (Elt F)))
  have v19 : (⟨S40, .f32⟩ : BufTy).Contents (Elt F) := Host.cos v18
  have v20 : (⟨S40, .f32⟩ : BufTy).Contents (Elt F) := Host.sin v18
  have v21 : (⟨S40, .f32⟩ : BufTy).Contents (Elt F) := Host.negf v20
  have v24 : (⟨S40x2, .f32⟩ : BufTy).Contents (Elt F) := concatenate S40x2 1 [⟨S40x1, broadcastInDim S40x1 ![0] bcast_S40_S40x1_0 v19⟩, ⟨S40x1, broadcastInDim S40x1 ![0] bcast_S40_S40x1_0 v21⟩] concatenates_S40x1_S40x1_S40x2_d1
  have v27 : (⟨S40x2, .f32⟩ : BufTy).Contents (Elt F) := concatenate S40x2 1 [⟨S40x1, broadcastInDim S40x1 ![0] bcast_S40_S40x1_0 v20⟩, ⟨S40x1, broadcastInDim S40x1 ![0] bcast_S40_S40x1_0 v19⟩] concatenates_S40x1_S40x1_S40x2_d1
  have v30 : (⟨S40x2x2, .f32⟩ : BufTy).Contents (Elt F) := concatenate S40x2x2 1 [⟨S40x1x2, broadcastInDim S40x1x2 ![0, 2] bcast_S40x2_S40x1x2_0_2 v24⟩, ⟨S40x1x2, broadcastInDim S40x1x2 ![0, 2] bcast_S40x2_S40x1x2_0_2 v27⟩] concatenates_S40x1x2_S40x1x2_S40x2x2_d1
  have v31 : (⟨S40, .f32⟩ : BufTy).Contents (Elt F) := Host.cos tr
  have v32 : (⟨S40, .f32⟩ : BufTy).Contents (Elt F) := Host.sin tr
  have v33 : (⟨S40, .f32⟩ : BufTy).Contents (Elt F) := broadcastInDim S40 ![] bcast_S_S40 (constant S_ .f32 0x00000000#32 : (⟨S_, .f32⟩ : BufTy).Contents (Elt F))
  have v34 : (⟨S40, .f32⟩ : BufTy).Contents (Elt F) := broadcastInDim S40 ![] bcast_S_S40 (constant S_ .f32 0x3F800000#32 : (⟨S_, .f32⟩ : BufTy).Contents (Elt F))
  have v38 : (⟨S40x3, .f32⟩ : BufTy).Contents (Elt F) := concatenate S40x3 1 [⟨S40x1, broadcastInDim S40x1 ![0] bcast_S40_S40x1_0 v31⟩, ⟨S40x1, broadcastInDim S40x1 ![0] bcast_S40_S40x1_0 v33⟩, ⟨S40x1, broadcastInDim S40x1 ![0] bcast_S40_S40x1_0 v32⟩] concatenates_S40x1_S40x1_S40x1_S40x3_d1
  have v42 : (⟨S40x3, .f32⟩ : BufTy).Contents (Elt F) := concatenate S40x3 1 [⟨S40x1, broadcastInDim S40x1 ![0] bcast_S40_S40x1_0 v33⟩, ⟨S40x1, broadcastInDim S40x1 ![0] bcast_S40_S40x1_0 v34⟩, ⟨S40x1, broadcastInDim S40x1 ![0] bcast_S40_S40x1_0 v33⟩] concatenates_S40x1_S40x1_S40x1_S40x3_d1
  have v45 : (⟨S40x2x3, .f32⟩ : BufTy).Contents (Elt F) := concatenate S40x2x3 1 [⟨S40x1x3, broadcastInDim S40x1x3 ![0, 2] bcast_S40x3_S40x1x3_0_2 v38⟩, ⟨S40x1x3, broadcastInDim S40x1x3 ![0, 2] bcast_S40x3_S40x1x3_0_2 v42⟩] concatenates_S40x1x3_S40x1x3_S40x2x3_d1
  have v51 : (⟨S40x2x3, .f32⟩ : BufTy).Contents (Elt F) := Host.dotGeneral dot_S40x2x2_S40x2x3_S40x2x3_2_1_1_2_0_0 none v30 v45
  have v53 : (⟨S40x2x3, .f32⟩ : BufTy).Contents (Elt F) := mulf (broadcastInDim S40x2x3 ![0, 1, 2] bcast_S40x1x1_S40x2x3_0_1_2 (broadcastInDim S40x1x1 ![0] bcast_S40_S40x1x1_0 me)) v51
  have v59 : (⟨S4x40x2, .f32⟩ : BufTy).Contents (Elt F) := Host.dotGeneral dot_S4x3_S40x2x3_S4x40x2_1_2_0_01_n_n none xyz v53
  have v62 : (⟨S4x40x2, .f32⟩ : BufTy).Contents (Elt F) := addf v59 (broadcastInDim S4x40x2 ![0, 1, 2] bcast_S1x40x2_S4x40x2_0_1_2 (broadcastInDim S1x40x2 ![1, 2] bcast_S40x2_S1x40x2_1_2 oe))
  shapeCast S160x2 v62 shapeCasts_S4x40x2_S160x2

end Cert.ReferenceIdeal.Hand

end
-- ==== Proof.RefOut.lean ====
/-
  What the reference's run leaves: the result buffer holds the 142 kept rows of `mid` of the rotation angles,
  the per-view tilt angles, magnifications and offsets (each the host chain of its argument array) and the
  marker coordinates; the five argument arrays are as launched. Read off the fold of the operations, one
  operation at a time.
-/
import proofs.«141354_j19318762897522_2_alg».proof.Proof.RefRun
import proofs.«141354_j19318762897522_2_alg».proof.Proof.RefHost
import proofs.«141354_j19318762897522_2_alg».proof.Proof.LibNaryResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The fold at the result buffer. -/
theorem out_eq (V : Valuation τ sig (Elt F)) :
    after ops V (main_v70 : DevRef τ sig)
      = keep (mid (V (main_arg0 : DevRef τ sig)) (tiltRad (V (main_arg3 : DevRef τ sig))) (magEff (V (main_arg1 : DevRef τ sig)))
          (offEff (V (main_arg4 : DevRef τ sig))) (V (main_arg2 : DevRef τ sig))) := by
  after_results_n
  rfl

set_option maxRecDepth 16384 in
set_option maxHeartbeats 4000000 in
theorem arg0_eq (V : Valuation τ sig (Elt F)) : after ops V (main_arg0 : DevRef τ sig) = V (main_arg0 : DevRef τ sig) := by
  after_results_n
set_option maxRecDepth 16384 in
set_option maxHeartbeats 4000000 in
theorem arg1_eq (V : Valuation τ sig (Elt F)) : after ops V (main_arg1 : DevRef τ sig) = V (main_arg1 : DevRef τ sig) := by
  after_results_n
set_option maxRecDepth 16384 in
set_option maxHeartbeats 4000000 in
theorem arg2_eq (V : Valuation τ sig (Elt F)) : after ops V (main_arg2 : DevRef τ sig) = V (main_arg2 : DevRef τ sig) := by
  after_results_n
set_option maxRecDepth 16384 in
set_option maxHeartbeats 4000000 in
theorem arg3_eq (V : Valuation τ sig (Elt F)) : after ops V (main_arg3 : DevRef τ sig) = V (main_arg3 : DevRef τ sig) := by
  after_results_n
set_option maxRecDepth 16384 in
set_option maxHeartbeats 4000000 in
theorem arg4_eq (V : Valuation τ sig (Elt F)) : after ops V (main_arg4 : DevRef τ sig) = V (main_arg4 : DevRef τ sig) := by
  after_results_n

/-- The run, read at the result and the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
        = keep (mid (m ((c.tc : Thread nD τ).loc main_arg0)) (tiltRad (m ((c.tc : Thread nD τ).loc main_arg3)))
            (magEff (m ((c.tc : Thread nD τ).loc main_arg1))) (offEff (m ((c.tc : Thread nD τ).loc main_arg4)))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v70).trans (out_eq _), (h c main_arg0).trans (arg0_eq _),
      (h c main_arg1).trans (arg1_eq _), (h c main_arg2).trans (arg2_eq _), (h c main_arg3).trans (arg3_eq _),
      (h c main_arg4).trans (arg4_eq _)⟩)
    (run_all m ρ)

end Cert.ReferenceIdeal.Hand

end
-- ==== Proof.Bridge.lean ====
/-
  The kernel's program and the reference compute the per-view tilt angle, magnification and offset, and select
  the kept rows, by the same host operations over the same constant tables; the two printed copies of each
  chain are one function.
-/
import proofs.«141354_j19318762897522_2_alg».proof.Proof.KernelIdealHost
import proofs.«141354_j19318762897522_2_alg».proof.Proof.RefHost

noncomputable section

namespace Cert.Bridge

open Idealize.ShloMosaic

variable {F : FTy → Type} [FloatOps F]

theorem lit0_eq : Cert.ReferenceIdeal.lit0 = Cert.KernelIdeal.lit0 := by funext i; revert i; decide
theorem lit1_eq : Cert.ReferenceIdeal.lit1 = Cert.KernelIdeal.lit1 := by funext i; revert i; decide
theorem lit2_eq : Cert.ReferenceIdeal.lit2 = Cert.KernelIdeal.lit2 := by funext i; revert i; decide
theorem lit3_eq : Cert.ReferenceIdeal.lit3 = Cert.KernelIdeal.lit3 := by funext i; revert i; decide
theorem lit4_eq : Cert.ReferenceIdeal.lit4 = Cert.KernelIdeal.lit4 := by funext i; revert i; decide
theorem lit5_eq : Cert.ReferenceIdeal.lit5 = Cert.KernelIdeal.lit5 := by funext i; revert i; decide

theorem tiltLo_eq (t : (⟨Cert.KernelIdeal.S8, .f32⟩ : BufTy).Contents (Elt F)) :
    Cert.ReferenceIdeal.Hand.tiltLo (F := F) t = Cert.KernelIdeal.Hand.tiltLo (F := F) t := by
  unfold Cert.ReferenceIdeal.Hand.tiltLo Cert.KernelIdeal.Hand.tiltLo
  rw [lit0_eq]
  rfl

theorem tiltHi_eq (t : (⟨Cert.KernelIdeal.S8, .f32⟩ : BufTy).Contents (Elt F)) :
    Cert.ReferenceIdeal.Hand.tiltHi (F := F) t = Cert.KernelIdeal.Hand.tiltHi (F := F) t := by
  unfold Cert.ReferenceIdeal.Hand.tiltHi Cert.KernelIdeal.Hand.tiltHi
  rw [lit1_eq]
  rfl

theorem tiltRad_eq (t : (⟨Cert.KernelIdeal.S8, .f32⟩ : BufTy).Contents (Elt F)) :
    Cert.ReferenceIdeal.Hand.tiltRad (F := F) t = Cert.KernelIdeal.Hand.tiltRad (F := F) t := by
  unfold Cert.ReferenceIdeal.Hand.tiltRad Cert.KernelIdeal.Hand.tiltRad
  rw [tiltLo_eq, tiltHi_eq, lit2_eq, lit3_eq, lit4_eq]

theorem magEff_eq (x : (⟨Cert.KernelIdeal.S40, .f32⟩ : BufTy).Contents (Elt F)) :
    Cert.ReferenceIdeal.Hand.magEff (F := F) x = Cert.KernelIdeal.Hand.magEff (F := F) x := rfl

theorem offEff_eq (x : (⟨Cert.KernelIdeal.S40x2, .f32⟩ : BufTy).Contents (Elt F)) :
    Cert.ReferenceIdeal.Hand.offEff (F := F) x = Cert.KernelIdeal.Hand.offEff (F := F) x := rfl

theorem keep_eq (x : (⟨Cert.KernelIdeal.S160x2, .f32⟩ : BufTy).Contents (Elt F)) :
    Cert.ReferenceIdeal.Hand.keep (F := F) x = Cert.KernelIdeal.Hand.keep (F := F) x := by
  unfold Cert.ReferenceIdeal.Hand.keep Cert.KernelIdeal.Hand.keep
  rw [lit5_eq]
  rfl

end Cert.Bridge

end
-- ==== Proof.Assembly.lean ====
/-
  The two runs side by side. The idealized kernel's result buffer ends at the kept rows of `stored` of the table
  and the transposed coordinates; the idealized reference's at the kept rows of `mid` of the same per-view
  quantities. Given that both `stored ∘ (table, transpose)` and `mid` are the common function `G` of the
  rotation angles, tilt angles, magnifications, offsets and coordinates, and since the host chains of the two
  programs are one function, the two results are equal; both runs leave the arguments unchanged.
-/
import proofs.«141354_j19318762897522_2_alg».proof.Defs
import proofs.«141354_j19318762897522_2_alg».proof.Proof.Gen.Pre_finite_inputs
import proofs.«141354_j19318762897522_2_alg».proof.Proof.Spec
import proofs.«141354_j19318762897522_2_alg».proof.Proof.KernelIdealRun
import proofs.«141354_j19318762897522_2_alg».proof.Proof.RefOut
import proofs.«141354_j19318762897522_2_alg».proof.Proof.Bridge

noncomputable section

namespace Cert.Proof

open Idealize.ShloMosaic Idealize.ShloMosaic.TcCoe Idealize.SL.Sem

/-- The algebraic claim, from the two value lemmas. -/
theorem algebraic_of
    (hK : ∀ (rot tr me : FVec Ideal Cert.KernelIdeal.S40 .f32) (oe : FVec Ideal Cert.KernelIdeal.S40x2 .f32) (xyz : FVec Ideal Cert.KernelIdeal.S4x3 .f32),
      Cert.KernelIdeal.Hand.stored (F := Ideal) (Cert.KernelIdeal.Hand.table (F := Ideal) rot tr me oe) (Cert.KernelIdeal.Hand.xyzT (F := Ideal) xyz) = Cert.Spec.G rot tr me oe xyz)
    (hR : ∀ (rot tr me : FVec Ideal Cert.ReferenceIdeal.S40 .f32) (oe : FVec Ideal Cert.ReferenceIdeal.S40x2 .f32) (xyz : FVec Ideal Cert.ReferenceIdeal.S4x3 .f32),
      Cert.ReferenceIdeal.Hand.mid (F := Ideal) rot tr me oe xyz = Cert.Spec.G rot tr me oe xyz) :
    Cert.algebraic_KernelIdeal_ReferenceIdeal := by
  intro m ρ m' ρ' _ hagree
  refine ⟨fun c => Cert.KernelIdeal.Hand.keep (F := Ideal)
      (Cert.Spec.G (m ((c.tc : Thread Cert.KernelIdeal.nD Cert.KernelIdeal.τ).loc Cert.KernelIdeal.main_arg0)) (Cert.KernelIdeal.Hand.tiltRad (F := Ideal) (m ((c.tc : Thread Cert.KernelIdeal.nD Cert.KernelIdeal.τ).loc Cert.KernelIdeal.main_arg3)))
        (Cert.KernelIdeal.Hand.magEff (F := Ideal) (m ((c.tc : Thread Cert.KernelIdeal.nD Cert.KernelIdeal.τ).loc Cert.KernelIdeal.main_arg1))) (Cert.KernelIdeal.Hand.offEff (F := Ideal) (m ((c.tc : Thread Cert.KernelIdeal.nD Cert.KernelIdeal.τ).loc Cert.KernelIdeal.main_arg4)))
        (m ((c.tc : Thread Cert.KernelIdeal.nD Cert.KernelIdeal.τ).loc Cert.KernelIdeal.main_arg2))), ?_, ?_⟩
  · refine (θ_run Cert.KernelIdeal.defs _ _).mono (fun _ h c => ⟨(h c).1.trans ?_, (h c).2⟩)
      (Cert.KernelIdeal.Hand.run_value (F := Ideal) m ρ)
    rw [hK]
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2, hR,
      Cert.Bridge.tiltRad_eq, Cert.Bridge.magEff_eq, Cert.Bridge.offEff_eq, Cert.Bridge.keep_eq]

end Cert.Proof

end
-- ==== Proof.KernelValue.lean ====
/-
  The value the kernel body stores, read entry by entry, is the specified array.

  The body reads five columns of a 40×5 per-view table (rotation angle in degrees, tilt angle in radians,
  magnification, two offset components) and three rows of the 3×4 transposed marker coordinates. From the columns it
  forms, per view, the six entries of `me · R(rot · π/180) · T(tr)`; each entry, a column `[40, 1]`, is spread along the
  rows of a `[40, 4]` array and multiplied by a coordinate row `[1, 4]` spread down it, the three products of a matrix
  row are added left to right and the offset column is added last: two planes `[40, 4]`, one per image coordinate, whose
  entry `(v, m)` belongs to view `v` and marker `m`. Column `m` of the two planes, side by side, is the block `[40, 2]`
  of marker `m`, and the four blocks stacked are the `[160, 2]` result: row `r` is view `r % 40` of marker `r / 40`.

  Each layout step (a column or a row spread over a matrix, one column cut out, two columns side by side, four blocks
  stacked, a load through a rectangle of unit stride, the host's five columns side by side, a vector placed as a column,
  a column flattened, a transpose) is read at an index written by its coordinates; the arithmetic between them is
  pointwise. The only constants are the zero word, which is 0, and the word of π/180, which is never evaluated: it is
  the same word in the specification.
-/
import proofs.«141354_j19318762897522_2_alg».proof.Proof.Spec
import proofs.«141354_j19318762897522_2_alg».proof.Proof.KernelIdealStored
import proofs.«141354_j19318762897522_2_alg».proof.Proof.KernelIdealHost
import Idealize.ShloMosaic.Lib.ValueLayout
import Idealize.ShloMosaic.PureOps.Ideal.Laws

noncomputable section

namespace Cert.KernelIdeal.KValue

open Idealize.ShloMosaic Idealize.ShloMosaic.ValueIdx Idealize.SL.Sem Cert.KernelIdeal Cert.KernelIdeal.Gen

/-! ## Layout operations read at an index written by coordinates -/

section Layout
variable {α : Type}

/-- A column `[a, 1]` broadcast along the rows of `[a, b]` reads, at `(p, c)`, the column's entry of row `p`. -/
theorem broadcastTo_a1_ab_apply {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of a `[40, 4]` array cut out as a `[40, 1]` column reads, at row `v`, the entry `(v, k)`. -/
theorem column_apply (X : S40x4.Idx → α) (k : Fin 4) (h : S40x4.Slices ![0, k.val] S40x1) (v : Fin 40) (c : Fin 1) :
    extractStridedSlice S40x1 ![0, k.val] X h (ix2 v c) = X (ix2 v k) :=
  slice2_axis1_apply k.val X h v c k (by have := c.isLt; omega)

/-- Two columns `[40, 1]` laid side by side read, in column 0, the first … -/
theorem pair_apply_zero (x y : S40x1.Idx → α) (h : Shape.Concatenates [S40x1, S40x1] S40x2 1) (v : Fin 40) :
    concatenate S40x2 1 [⟨S40x1, x⟩, ⟨S40x1, y⟩] h (ix2 v (0 : Fin 2)) = x (ix2 v (0 : Fin 1)) :=
  concatenate_pair_apply_left (1 : Fin 2) x y h (ix2 v (0 : Fin 2)) rfl (ix2 v (0 : Fin 1))
    (fun b => match b with | ⟨0, _⟩ => rfl | ⟨1, _⟩ => rfl)

/-- … and, in column 1, the second. -/
theorem pair_apply_one (x y : S40x1.Idx → α) (h : Shape.Concatenates [S40x1, S40x1] S40x2 1) (v : Fin 40) :
    concatenate S40x2 1 [⟨S40x1, x⟩, ⟨S40x1, y⟩] h (ix2 v (1 : Fin 2)) = y (ix2 v (0 : Fin 1)) :=
  concatenate_pair_apply_right (1 : Fin 2) x y h (ix2 v (1 : Fin 2)) rfl rfl (ix2 v (0 : Fin 1))
    (fun b hb => match b, hb with | ⟨0, _⟩, _ => rfl | ⟨1, _⟩, hb => absurd rfl hb) rfl

/-- Four `[40, 2]` blocks stacked along the rows: row `r` of the `[160, 2]` result is row `r % 40` of block `r / 40`. -/
theorem stack_apply (f : Fin 4 → S40x2.Idx → α)
    (h : Shape.Concatenates ((List.ofFn fun n : Fin 4 => (⟨S40x2, f n⟩ : (s : Shape) × (s.Idx → α))).map (·.1)) S160x2 0)
    (r : Fin 160) (p : Fin 2) :
    concatenate S160x2 0 (List.ofFn fun n : Fin 4 => (⟨S40x2, f n⟩ : (s : Shape) × (s.Idx → α))) h (ix2 r p)
      = f ⟨r.val / 40, by omega⟩ (ix2 (⟨r.val % 40, Nat.mod_lt _ (by decide)⟩ : Fin 40) p) :=
  concatenate_ofFn_apply (t := S160x2) (s₁ := S40x2) (0 : Fin 2) f h rfl 40 rfl (ix2 r p) ⟨r.val / 40, by omega⟩ rfl
    (ix2 (⟨r.val % 40, Nat.mod_lt _ (by decide)⟩ : Fin 40) p) rfl
    (fun b hb => match b, hb with | ⟨0, _⟩, hb => absurd rfl hb | ⟨1, _⟩, _ => rfl)

end Layout

/-! ## The body's arithmetic read at an index -/

section Body

/-- Every column offset of a `[40, 4]` array admits a `[40, 1]` slice. -/
theorem slices_column : ∀ m : Fin 4, S40x4.Slices ![0, m.val] S40x1 := by decide

/-- The first image coordinate of every marker in every view, `[40, 4]`: the two-term partial sum `s`, plus the
    third product, plus the first offset column. -/
def planeU (o0 a02 : FVec Ideal S40x1 .f32) (x2 : FVec Ideal S1x4 .f32) (s : FVec Ideal S40x4 .f32) :
    FVec Ideal S40x4 .f32 :=
  addf (addf s (mulf (broadcastTo S40x4 a02 broadcasts_S40x1_S40x4) (broadcastTo S40x4 x2 broadcasts_S1x4_S40x4)))
    (broadcastTo S40x4 o0 broadcasts_S40x1_S40x4)

/-- The second image coordinate, `[40, 4]`: three products summed left to right, plus the second offset column. -/
def planeV (o1 a10 a11 a12 : FVec Ideal S40x1 .f32) (x0 x1 x2 : FVec Ideal S1x4 .f32) : FVec Ideal S40x4 .f32 :=
  addf (addf (addf (mulf (broadcastTo S40x4 a10 broadcasts_S40x1_S40x4) (broadcastTo S40x4 x0 broadcasts_S1x4_S40x4))
        (mulf (broadcastTo S40x4 a11 broadcasts_S40x1_S40x4) (broadcastTo S40x4 x1 broadcasts_S1x4_S40x4)))
      (mulf (broadcastTo S40x4 a12 broadcasts_S40x1_S40x4) (broadcastTo S40x4 x2 broadcasts_S1x4_S40x4)))
    (broadcastTo S40x4 o1 broadcasts_S40x1_S40x4)

theorem planeU_apply (o0 a02 : FVec Ideal S40x1 .f32) (x2 : FVec Ideal S1x4 .f32) (s : FVec Ideal S40x4 .f32)
    (v : Fin 40) (m : Fin 4) :
    planeU o0 a02 x2 s (ix2 v m)
      = s (ix2 v m) + a02 (ix2 v (0 : Fin 1)) * x2 (ix2 (0 : Fin 1) m) + o0 (ix2 v (0 : Fin 1)) := by
  unfold planeU
  rw [addf_apply, addf_apply, mulf_apply, broadcastTo_a1_ab_apply, broadcastTo_1b_ab_apply, broadcastTo_a1_ab_apply]

theorem planeV_apply (o1 a10 a11 a12 : FVec Ideal S40x1 .f32) (x0 x1 x2 : FVec Ideal S1x4 .f32) (v : Fin 40) (m : Fin 4) :
    planeV o1 a10 a11 a12 x0 x1 x2 (ix2 v m)
      = a10 (ix2 v (0 : Fin 1)) * x0 (ix2 (0 : Fin 1) m) + a11 (ix2 v (0 : Fin 1)) * x1 (ix2 (0 : Fin 1) m)
          + a12 (ix2 v (0 : Fin 1)) * x2 (ix2 (0 : Fin 1) m) + o1 (ix2 v (0 : Fin 1)) := by
  unfold planeV
  rw [addf_apply, addf_apply, addf_apply, mulf_apply, mulf_apply, mulf_apply,
    broadcastTo_a1_ab_apply, broadcastTo_1b_ab_apply, broadcastTo_a1_ab_apply, broadcastTo_1b_ab_apply,
    broadcastTo_a1_ab_apply, broadcastTo_1b_ab_apply, broadcastTo_a1_ab_apply]

/-- Block `m` of the result: column `m` of the two planes side by side. -/
def block (U V : FVec Ideal S40x4 .f32) (m : Fin 4) : FVec Ideal S40x2 .f32 :=
  concatenate S40x2 1
    [⟨S40x1, extractStridedSlice S40x1 ![0, m.val] U (slices_column m)⟩,
     ⟨S40x1, extractStridedSlice S40x1 ![0, m.val] V (slices_column m)⟩]
    concatenates_S40x1_S40x1_S40x2_d1

theorem block_apply_zero (U V : FVec Ideal S40x4 .f32) (m : Fin 4) (v : Fin 40) :
    block U V m (ix2 v (0 : Fin 2)) = U (ix2 v m) :=
  (pair_apply_zero _ _ _ v).trans (column_apply U m _ v 0)

theorem block_apply_one (U V : FVec Ideal S40x4 .f32) (m : Fin 4) (v : Fin 40) :
    block U V m (ix2 v (1 : Fin 2)) = V (ix2 v m) :=
  (pair_apply_one _ _ _ v).trans (column_apply V m _ v 0)

/-- The stored value is the four blocks stacked: row `r` is row `r % 40` of block `r / 40`. -/
theorem pay1_apply (v9 v11 v22 v24 v25 v27 : FVec Ideal S40x1 .f32) (v29 v31 v33 : FVec Ideal S1x4 .f32)
    (v40 : FVec Ideal S40x4 .f32) (r : Fin 160) (p : Fin 2) :
    k0_pay1 v9 v11 v22 v24 v25 v27 v29 v31 v33 v40 (ix2 r p)
      = block (planeU v9 v22 v33 v40) (planeV v11 v24 v25 v27 v29 v31 v33) ⟨r.val / 40, by omega⟩
          (ix2 (⟨r.val % 40, Nat.mod_lt _ (by decide)⟩ : Fin 40) p) :=
  stack_apply (fun m => block (planeU v9 v22 v33 v40) (planeV v11 v24 v25 v27 v29 v31 v33) m)
    concatenates_S40x2_S40x2_S40x2_S40x2_S160x2_d0 r p

end Body

/-! ## The per-view coefficients, and the body against the specification -/

section Coefficients

variable (c0 c1 c2 : FVec Ideal S40x1 .f32) (i : S40x1.Idx)

/-- A cast of a shape to itself changes nothing: the five columns and the three rows enter the arithmetic as read. -/
theorem pay4_eq (c : FVec Ideal S40x1 .f32) : k0_pay4 (F := Ideal) c = c := shapeCast_self c _
theorem pay3_eq (c : FVec Ideal S40x1 .f32) : k0_pay3 (F := Ideal) c = c := shapeCast_self c _
theorem pay5_eq (c : FVec Ideal S40x1 .f32) : k0_pay5 (F := Ideal) c = c := shapeCast_self c _
theorem pay6_eq (c : FVec Ideal S40x1 .f32) : k0_pay6 (F := Ideal) c = c := shapeCast_self c _
theorem pay15_eq (w : FVec Ideal S1x4 .f32) : k0_pay15 (F := Ideal) w = w := shapeCast_self w _
theorem pay16_eq (w : FVec Ideal S1x4 .f32) : k0_pay16 (F := Ideal) w = w := shapeCast_self w _
theorem pay17_eq (w : FVec Ideal S1x4 .f32) : k0_pay17 (F := Ideal) w = w := shapeCast_self w _

/-- The rotation angle in radians: the angle column times the word of π/180. -/
theorem pay2_apply : k0_pay2 (F := Ideal) c0 i = c0 i * Cert.Spec.d2r := by
  unfold k0_pay2
  rw [shapeCast_self]
  rfl

/-- Cosine and sine of the rotation angle, cosine and sine of the tilt angle. -/
theorem pay7_apply : k0_pay7 (F := Ideal) c0 i = Ideal.cos (c0 i * Cert.Spec.d2r) := by
  unfold k0_pay7
  exact congrArg Ideal.cos (pay2_apply c0 i)
theorem pay8_apply : k0_pay8 (F := Ideal) c0 i = Ideal.sin (c0 i * Cert.Spec.d2r) := by
  unfold k0_pay8
  exact congrArg Ideal.sin (pay2_apply c0 i)
theorem pay9_apply : k0_pay9 (F := Ideal) c1 i = Ideal.cos (c1 i) := by
  unfold k0_pay9
  rw [pay3_eq]
  rfl
theorem pay10_apply : k0_pay10 (F := Ideal) c1 i = Ideal.sin (c1 i) := by
  unfold k0_pay10
  rw [pay3_eq]
  rfl

/-- The four coefficient columns that enter the last two products and the second coordinate. -/
theorem pay11_apply : k0_pay11 (F := Ideal) c0 c1 c2 i = c2 i * Ideal.cos (c0 i * Cert.Spec.d2r) * Ideal.sin (c1 i) := by
  unfold k0_pay11
  rw [pay4_eq, mulf_apply, mulf_apply, pay7_apply, pay10_apply]
theorem pay12_apply : k0_pay12 (F := Ideal) c0 c1 c2 i = c2 i * Ideal.sin (c0 i * Cert.Spec.d2r) * Ideal.cos (c1 i) := by
  unfold k0_pay12
  rw [pay4_eq, mulf_apply, mulf_apply, pay8_apply, pay9_apply]
theorem pay13_apply : k0_pay13 (F := Ideal) c0 c2 i = c2 i * Ideal.cos (c0 i * Cert.Spec.d2r) := by
  unfold k0_pay13
  rw [pay4_eq, mulf_apply, pay7_apply]
theorem pay14_apply : k0_pay14 (F := Ideal) c0 c1 c2 i = c2 i * Ideal.sin (c0 i * Cert.Spec.d2r) * Ideal.sin (c1 i) := by
  unfold k0_pay14
  rw [pay4_eq, mulf_apply, mulf_apply, pay8_apply, pay10_apply]

/-- The first two products of the first coordinate, summed, at view `v` and marker `m`. -/
theorem pay18_apply (w0 w1 : FVec Ideal S1x4 .f32) (v : Fin 40) (m : Fin 4) :
    k0_pay18 (F := Ideal) c0 c1 c2 w0 w1 (ix2 v m)
      = c2 (ix2 v (0 : Fin 1)) * Ideal.cos (c0 (ix2 v (0 : Fin 1)) * Cert.Spec.d2r) * Ideal.cos (c1 (ix2 v (0 : Fin 1)))
            * w0 (ix2 (0 : Fin 1) m)
          + (0 - c2 (ix2 v (0 : Fin 1))) * Ideal.sin (c0 (ix2 v (0 : Fin 1)) * Cert.Spec.d2r) * w1 (ix2 (0 : Fin 1) m) := by
  unfold k0_pay18
  rw [pay4_eq, pay15_eq, pay16_eq, addf_apply, mulf_apply, mulf_apply,
    broadcastTo_a1_ab_apply, broadcastTo_1b_ab_apply, broadcastTo_a1_ab_apply, broadcastTo_1b_ab_apply,
    mulf_apply, mulf_apply, mulf_apply, subf_apply, pay7_apply, pay8_apply, pay9_apply, broadcast_apply]
  show _ + (Ideal.ofBits .f32 0x00000000#32 - _) * _ * _ = _
  rw [Ideal.ofBits_zero_f32]

end Coefficients

/-! ## The body against the specification -/

section Against

/-- The body's arithmetic of five columns (rotation angle, tilt angle, magnification, two offsets) and three rows
    (the markers' coordinates) is the specification's closed form, row by row. -/
theorem body_apply (c0 c1 c2 c3 c4 : FVec Ideal S40x1 .f32) (w0 w1 w2 : FVec Ideal S1x4 .f32)
    (rot tr me : Fin 40 → EReal) (oe : Fin 40 → Fin 2 → EReal) (xyz : Fin 4 → Fin 3 → EReal)
    (h0 : ∀ v : Fin 40, c0 (ix2 v (0 : Fin 1)) = rot v) (h1 : ∀ v : Fin 40, c1 (ix2 v (0 : Fin 1)) = tr v)
    (h2 : ∀ v : Fin 40, c2 (ix2 v (0 : Fin 1)) = me v) (h3 : ∀ v : Fin 40, c3 (ix2 v (0 : Fin 1)) = oe v 0)
    (h4 : ∀ v : Fin 40, c4 (ix2 v (0 : Fin 1)) = oe v 1)
    (g0 : ∀ m : Fin 4, w0 (ix2 (0 : Fin 1) m) = xyz m 0) (g1 : ∀ m : Fin 4, w1 (ix2 (0 : Fin 1) m) = xyz m 1)
    (g2 : ∀ m : Fin 4, w2 (ix2 (0 : Fin 1) m) = xyz m 2) (r : Fin 160) (p : Fin 2) :
    k0_pay1 (F := Ideal) (k0_pay5 (F := Ideal) c3) (k0_pay6 (F := Ideal) c4) (k0_pay11 (F := Ideal) c0 c1 c2)
        (k0_pay12 (F := Ideal) c0 c1 c2) (k0_pay13 (F := Ideal) c0 c2) (k0_pay14 (F := Ideal) c0 c1 c2)
        (k0_pay15 (F := Ideal) w0) (k0_pay16 (F := Ideal) w1) (k0_pay17 (F := Ideal) w2)
        (k0_pay18 (F := Ideal) c0 c1 c2 w0 w1) (ix2 r p)
      = Cert.Spec.full rot tr me oe xyz r p := by
  rw [pay1_apply, pay5_eq, pay6_eq, pay15_eq, pay16_eq, pay17_eq]
  match p with
  | ⟨0, _⟩ =>
    refine (block_apply_zero _ _ _ _).trans ?_
    rw [planeU_apply, pay18_apply, pay11_apply, h0, h1, h2, h3, g0, g1, g2]
    rfl
  | ⟨1, _⟩ =>
    refine (block_apply_one _ _ _ _).trans ?_
    rw [planeV_apply, pay12_apply, pay13_apply, pay14_apply, h0, h1, h2, h4, g0, g1, g2]
    rfl

end Against

/-! ## The loads, and the host's table and transposed coordinates, read at an index -/

section Loads
variable {Val : EltTy → Type} {e : EltTy}

/-- A load of column `k` of the `[40, 5]` table, all rows, reads at row `v` the table's entry `(v, k)`. -/
theorem ld_column (X : S40x5.Idx → Val e) (o : ℕ) (k : Fin 5) (hk : k.val = o)
    (inb : ∀ a, (![0, o] : Fin 2 → ℕ) a + S40x1.size a ≤ S40x5.size a) (v : Fin 40) (c : Fin 1) :
    View.ld X (Rect.unit (s := S40x5) ![0, o] S40x1.size inb) (ix2 v c) = X (ix2 v k) := by
  refine congrArg X (funext fun a => Fin.ext ?_)
  match a with
  | ⟨0, _⟩ => show 0 + 1 * v.val = v.val; omega
  | ⟨1, _⟩ => show o + 1 * c.val = k.val; have := c.isLt; omega

/-- A load of row `k` of the `[3, 4]` coordinates, all markers, reads at marker `m` the entry `(k, m)`. -/
theorem ld_row (X : S3x4.Idx → Val e) (o : ℕ) (k : Fin 3) (hk : k.val = o)
    (inb : ∀ a, (![o, 0] : Fin 2 → ℕ) a + S1x4.size a ≤ S3x4.size a) (u : Fin 1) (m : Fin 4) :
    View.ld X (Rect.unit (s := S3x4) ![o, 0] S1x4.size inb) (ix2 u m) = X (ix2 k m) := by
  refine congrArg X (funext fun a => Fin.ext ?_)
  match a with
  | ⟨0, _⟩ => show o + 1 * u.val = k.val; have := u.isLt; omega
  | ⟨1, _⟩ => show 0 + 1 * m.val = m.val; omega

end Loads

section Host
variable {α : Type}

/-- A vector `[40]` placed as a column `[40, 1]` reads, at row `v`, the vector's entry `v`. -/
theorem asColumn_apply (x : S40.Idx → α) (h : S40.BroadcastsInDim S40x1 (![0] : Fin 1 → Fin S40x1.rank))
    (v : Fin 40) (c : Fin 1) : broadcastInDim S40x1 ![0] h x (ix2 v c) = x (ix1 v) :=
  broadcastInDim_apply _ h x (ix2 v c) (ix1 v) fun a => match a with | ⟨0, _⟩ => rfl

/-- Column `p` of a `[40, 2]` array, cut out and flattened to `[40]`, reads at `v` the entry `(v, p)`. -/
theorem flatColumn_apply (x : S40x2.Idx → α) (o : ℕ) (p : Fin 2) (hp : p.val = o) (hs : S40x2.Slices ![0, o] S40x1)
    (hc : S40x1.ShapeCasts S40) (v : Fin 40) :
    shapeCast S40 (extractStridedSlice S40x1 ![0, o] x hs) hc (ix1 v) = x (ix2 v p) := by
  refine (shapeCast_apply _ hc (ix1 v) (ix2 v (0 : Fin 1)) ?_).trans
    (slice2_axis1_apply o x hs v (0 : Fin 1) p (by rw [hp]; rfl))
  rw [Shape.rowMajor_val_two, Shape.rowMajor_val_one]
  show v.val * 1 + 0 = v.val
  omega

/-- Five columns `[40, 1]` laid side by side: column `k` of the `[40, 5]` result is piece `k`. -/
theorem five_apply (f : Fin 5 → S40x1.Idx → α)
    (h : Shape.Concatenates ((List.ofFn fun n : Fin 5 => (⟨S40x1, f n⟩ : (s : Shape) × (s.Idx → α))).map (·.1)) S40x5 1)
    (v : Fin 40) (k : Fin 5) :
    concatenate S40x5 1 (List.ofFn fun n : Fin 5 => (⟨S40x1, f n⟩ : (s : Shape) × (s.Idx → α))) h (ix2 v k)
      = f k (ix2 v (0 : Fin 1)) :=
  concatenate_ofFn_unit_apply (t := S40x5) (s₁ := S40x1) (1 : Fin 2) f h rfl rfl (ix2 v k) k rfl (ix2 v (0 : Fin 1))
    (fun b hb => match b, hb with | ⟨0, _⟩, _ => rfl | ⟨1, _⟩, hb => absurd rfl hb)

end Host

section Table
variable (rot tr me : FVec Ideal S40 .f32) (oe : FVec Ideal S40x2 .f32) (xyz : FVec Ideal S4x3 .f32)

/-- The five pieces of the host's table. -/
def pieces : Fin 5 → FVec Ideal S40x1 .f32 :=
  ![broadcastInDim S40x1 ![0] bcast_S40_S40x1_0 rot,
    broadcastInDim S40x1 ![0] bcast_S40_S40x1_0 tr,
    broadcastInDim S40x1 ![0] bcast_S40_S40x1_0 me,
    broadcastInDim S40x1 ![0] bcast_S40_S40x1_0
      (shapeCast S40 (extractStridedSlice S40x1 ![0, 0] oe slices_S40x2_S40x1_0_0) shapeCasts_S40x1_S40),
    broadcastInDim S40x1 ![0] bcast_S40_S40x1_0
      (shapeCast S40 (extractStridedSlice S40x1 ![0, 1] oe slices_S40x2_S40x1_0_1) shapeCasts_S40x1_S40)]

/-- The table's entry `(v, k)` is piece `k` at row `v`. -/
theorem table_apply (v : Fin 40) (k : Fin 5) :
    Hand.table (F := Ideal) rot tr me oe (ix2 v k) = pieces rot tr me oe k (ix2 v (0 : Fin 1)) :=
  five_apply (pieces rot tr me oe) concatenates_S40x1_S40x1_S40x1_S40x1_S40x1_S40x5_d1 v k

theorem table_0 (v : Fin 40) : Hand.table (F := Ideal) rot tr me oe (ix2 v (0 : Fin 5)) = rot (ix1 v) :=
  (table_apply rot tr me oe v 0).trans (asColumn_apply rot bcast_S40_S40x1_0 v 0)
theorem table_1 (v : Fin 40) : Hand.table (F := Ideal) rot tr me oe (ix2 v (1 : Fin 5)) = tr (ix1 v) :=
  (table_apply rot tr me oe v 1).trans (asColumn_apply tr bcast_S40_S40x1_0 v 0)
theorem table_2 (v : Fin 40) : Hand.table (F := Ideal) rot tr me oe (ix2 v (2 : Fin 5)) = me (ix1 v) :=
  (table_apply rot tr me oe v 2).trans (asColumn_apply me bcast_S40_S40x1_0 v 0)
theorem table_3 (v : Fin 40) : Hand.table (F := Ideal) rot tr me oe (ix2 v (3 : Fin 5)) = oe (ix2 v (0 : Fin 2)) := by
  refine (table_apply rot tr me oe v 3).trans ?_
  show broadcastInDim S40x1 ![0] bcast_S40_S40x1_0
      (shapeCast S40 (extractStridedSlice S40x1 ![0, 0] oe slices_S40x2_S40x1_0_0) shapeCasts_S40x1_S40)
      (ix2 v (0 : Fin 1)) = oe (ix2 v (0 : Fin 2))
  exact (asColumn_apply _ bcast_S40_S40x1_0 v 0).trans
    (flatColumn_apply oe 0 0 rfl slices_S40x2_S40x1_0_0 shapeCasts_S40x1_S40 v)
theorem table_4 (v : Fin 40) : Hand.table (F := Ideal) rot tr me oe (ix2 v (4 : Fin 5)) = oe (ix2 v (1 : Fin 2)) := by
  refine (table_apply rot tr me oe v 4).trans ?_
  show broadcastInDim S40x1 ![0] bcast_S40_S40x1_0
      (shapeCast S40 (extractStridedSlice S40x1 ![0, 1] oe slices_S40x2_S40x1_0_1) shapeCasts_S40x1_S40)
      (ix2 v (0 : Fin 1)) = oe (ix2 v (1 : Fin 2))
  exact (asColumn_apply _ bcast_S40_S40x1_0 v 0).trans
    (flatColumn_apply oe 1 1 rfl slices_S40x2_S40x1_0_1 shapeCasts_S40x1_S40 v)

/-- The transposed coordinates' entry `(k, m)` is coordinate `k` of marker `m`. -/
theorem xyzT_apply (k : Fin 3) (m : Fin 4) : Hand.xyzT (F := Ideal) xyz (ix2 k m) = xyz (ix2 m k) :=
  transpose_ix2_apply xyz _ k m

end Table

/-! ## The kernel side of the claim -/

/-- The value the body stores, from the host's table and transposed coordinates, is the specified array. -/
theorem stored_table (rot tr me : FVec Ideal Cert.KernelIdeal.S40 .f32) (oe : FVec Ideal Cert.KernelIdeal.S40x2 .f32) (xyz : FVec Ideal Cert.KernelIdeal.S4x3 .f32) :
    Cert.KernelIdeal.Hand.stored (F := Ideal) (Cert.KernelIdeal.Hand.table (F := Ideal) rot tr me oe) (Cert.KernelIdeal.Hand.xyzT (F := Ideal) xyz) = Cert.Spec.G rot tr me oe xyz := by
  funext i
  obtain ⟨r, p, rfl⟩ : ∃ (r : Fin 160) (p : Fin 2), i = ix2 r p := ⟨i 0, i 1, eq_ix2 i⟩
  rw [Cert.Spec.G_apply]
  exact body_apply _ _ _ _ _ _ _ _ _ _ _ _ _
    (fun v => (ld_column _ 0 0 rfl _ v 0).trans (table_0 rot tr me oe v))
    (fun v => (ld_column _ 1 1 rfl _ v 0).trans (table_1 rot tr me oe v))
    (fun v => (ld_column _ 2 2 rfl _ v 0).trans (table_2 rot tr me oe v))
    (fun v => (ld_column _ 3 3 rfl _ v 0).trans (table_3 rot tr me oe v))
    (fun v => (ld_column _ 4 4 rfl _ v 0).trans (table_4 rot tr me oe v))
    (fun m => (ld_row _ 0 0 rfl _ 0 m).trans (xyzT_apply xyz 0 m))
    (fun m => (ld_row _ 1 1 rfl _ 0 m).trans (xyzT_apply xyz 1 m))
    (fun m => (ld_row _ 2 2 rfl _ 0 m).trans (xyzT_apply xyz 2 m))
    r p

end Cert.KernelIdeal.KValue

end
-- ==== Proof.RefValue.lean ====
/-
  The reference's host operations from the per-view quantities to the full [160, 2] array, read entry by entry.

  For a view `v`, with cr, sr the cosine and sine of `rot v · d2r` and ct, st those of `tr v`, the reference assembles the
  rotation matrix R v = [[cr, −sr], [sr, cr]] and the tilt matrix T v = [[ct, 0, st], [0, 1, 0]] by placing columns side
  by side and rows one over the other, multiplies them view by view (entry (p, k) is the sum over j of R v p j · T v j k,
  two terms), scales by `me v`, contracts with the coordinates (entry (m, v, p) is the sum over k of
  xyz m k · (me v · (R T) v p k), three terms), adds `oe v p`, and lays entry (m, v, p) at row 40 m + v.
  Each layout step is read at an index (a column or row of a concatenation is the piece its coordinate names, a broadcast
  reads the operand at the coordinates of the axes it keeps, the reshape keeps the row-major position); what is left is an
  identity between two polynomial expressions in nine extended reals, which needs only x · 0 = 0, x + 0 = x, x · 1 = x,
  0 − a = −a, (−a) · b = −(a · b) = a · (−b) and the commutative monoid laws of + and · — all valid on the extended reals
  without any finiteness assumption; no distributivity is used.
-/
import proofs.«141354_j19318762897522_2_alg».proof.Proof.Spec
import proofs.«141354_j19318762897522_2_alg».proof.Proof.RefHost
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.RValue

open Idealize.ShloMosaic Idealize.SL.Sem Idealize.ShloMosaic.ValueIdx Cert.ReferenceIdeal Cert.ReferenceIdeal.Gen

/-- The word of 1.0 denotes 1. -/
theorem ofBits_one : Ideal.ofBits .f32 0x3F800000#32 = 1 := by
  simp [Ideal.ofBits, Ideal.ieee, -EReal.coe_mul]; norm_num

theorem col_apply (h : S40.BroadcastsInDim S40x1 (![0] : Fin 1 → Fin S40x1.rank)) (x : FVec Ideal S40 .f32) (v : Fin 40) (q : Fin 1) :
    broadcastInDim S40x1 ![0] h x (ix2 v q) = x (ix1 v) :=
  broadcastInDim_apply _ h x _ (ix1 v) (fun a => by match a with | ⟨0, _⟩ => rfl)

theorem splat_apply (h : S_.BroadcastsInDim S40 (![] : Fin 0 → Fin S40.rank)) (w : BitVec 32) (v : Fin 40) :
    broadcastInDim S40 ![] h (constant (F := Ideal) S_ .f32 w) (ix1 v) = Ideal.ofBits .f32 w := rfl

theorem dot1_apply (A : FVec Ideal S40x2x2 .f32) (B : FVec Ideal S40x2x3 .f32) (v : Fin 40) (p : Fin 2) (k : Fin 3) :
    Host.dotGeneral (F := Ideal) dot_S40x2x2_S40x2x3_S40x2x3_2_1_1_2_0_0 none A B (ix3 v p k)
      = ∑ j : Fin 2, A (ix3 v p j) * B (ix3 v j k) :=
  StackMember.dotGeneral_stack_apply (G := 40) (m := 2) (n := 3) (k := 2) _ none A B v p k

/-- Two [40] columns side by side: column 0 is the first, column 1 the second. -/
theorem cols2_apply0 (hb : S40.BroadcastsInDim S40x1 (![0] : Fin 1 → Fin S40x1.rank))
    (h : Shape.Concatenates [S40x1, S40x1] S40x2 1) (a b : FVec Ideal S40 .f32) (v : Fin 40) :
    concatenate S40x2 1 [⟨S40x1, broadcastInDim S40x1 ![0] hb a⟩, ⟨S40x1, broadcastInDim S40x1 ![0] hb b⟩] h (ix2 v (0 : Fin 2))
      = a (ix1 v) := by
  refine (concatenate_apply_piece (1 : Fin S40x2.rank)
    [⟨S40x1, broadcastInDim S40x1 ![0] hb a⟩, ⟨S40x1, broadcastInDim S40x1 ![0] hb b⟩] h (ix2 v (0 : Fin 2))
    0 (Nat.zero_lt_succ _) S40x1 _ rfl rfl 0 rfl (ix2 v (0 : Fin 1)) ?_ ?_).trans (col_apply hb a v 0)
  · intro c hc
    match c with
    | ⟨0, _⟩ => rfl
    | ⟨1, _⟩ => exact absurd rfl hc
  · rfl

theorem cols2_apply1 (hb : S40.BroadcastsInDim S40x1 (![0] : Fin 1 → Fin S40x1.rank))
    (h : Shape.Concatenates [S40x1, S40x1] S40x2 1) (a b : FVec Ideal S40 .f32) (v : Fin 40) :
    concatenate S40x2 1 [⟨S40x1, broadcastInDim S40x1 ![0] hb a⟩, ⟨S40x1, broadcastInDim S40x1 ![0] hb b⟩] h (ix2 v (1 : Fin 2))
      = b (ix1 v) := by
  refine (concatenate_apply_piece (1 : Fin S40x2.rank)
    [⟨S40x1, broadcastInDim S40x1 ![0] hb a⟩, ⟨S40x1, broadcastInDim S40x1 ![0] hb b⟩] h (ix2 v (1 : Fin 2))
    1 (Nat.succ_lt_succ (Nat.zero_lt_succ _)) S40x1 _ rfl rfl 1 rfl (ix2 v (0 : Fin 1)) ?_ ?_).trans (col_apply hb b v 0)
  · intro c hc
    match c with
    | ⟨0, _⟩ => rfl
    | ⟨1, _⟩ => exact absurd rfl hc
  · rfl

theorem cols3_apply0 (hb : S40.BroadcastsInDim S40x1 (![0] : Fin 1 → Fin S40x1.rank))
    (h : Shape.Concatenates [S40x1, S40x1, S40x1] S40x3 1) (a b c : FVec Ideal S40 .f32) (v : Fin 40) :
    concatenate S40x3 1 [⟨S40x1, broadcastInDim S40x1 ![0] hb a⟩, ⟨S40x1, broadcastInDim S40x1 ![0] hb b⟩,
        ⟨S40x1, broadcastInDim S40x1 ![0] hb c⟩] h (ix2 v (0 : Fin 3)) = a (ix1 v) := by
  refine (concatenate_apply_piece (1 : Fin S40x3.rank)
    [⟨S40x1, broadcastInDim S40x1 ![0] hb a⟩, ⟨S40x1, broadcastInDim S40x1 ![0] hb b⟩,
      ⟨S40x1, broadcastInDim S40x1 ![0] hb c⟩] h (ix2 v (0 : Fin 3))
    0 (Nat.zero_lt_succ _) S40x1 _ rfl rfl 0 rfl (ix2 v (0 : Fin 1)) ?_ ?_).trans (col_apply hb a v 0)
  · intro e he
    match e with
    | ⟨0, _⟩ => rfl
    | ⟨1, _⟩ => exact absurd rfl he
  · rfl

theorem cols3_apply1 (hb : S40.BroadcastsInDim S40x1 (![0] : Fin 1 → Fin S40x1.rank))
    (h : Shape.Concatenates [S40x1, S40x1, S40x1] S40x3 1) (a b c : FVec Ideal S40 .f32) (v : Fin 40) :
    concatenate S40x3 1 [⟨S40x1, broadcastInDim S40x1 ![0] hb a⟩, ⟨S40x1, broadcastInDim S40x1 ![0] hb b⟩,
        ⟨S40x1, broadcastInDim S40x1 ![0] hb c⟩] h (ix2 v (1 : Fin 3)) = b (ix1 v) := by
  refine (concatenate_apply_piece (1 : Fin S40x3.rank)
    [⟨S40x1, broadcastInDim S40x1 ![0] hb a⟩, ⟨S40x1, broadcastInDim S40x1 ![0] hb b⟩,
      ⟨S40x1, broadcastInDim S40x1 ![0] hb c⟩] h (ix2 v (1 : Fin 3))
    1 (Nat.succ_lt_succ (Nat.zero_lt_succ _)) S40x1 _ rfl rfl 1 rfl (ix2 v (0 : Fin 1)) ?_ ?_).trans (col_apply hb b v 0)
  · intro e he
    match e with
    | ⟨0, _⟩ => rfl
    | ⟨1, _⟩ => exact absurd rfl he
  · rfl

theorem cols3_apply2 (hb : S40.BroadcastsInDim S40x1 (![0] : Fin 1 → Fin S40x1.rank))
    (h : Shape.Concatenates [S40x1, S40x1, S40x1] S40x3 1) (a b c : FVec Ideal S40 .f32) (v : Fin 40) :
    concatenate S40x3 1 [⟨S40x1, broadcastInDim S40x1 ![0] hb a⟩, ⟨S40x1, broadcastInDim S40x1 ![0] hb b⟩,
        ⟨S40x1, broadcastInDim S40x1 ![0] hb c⟩] h (ix2 v (2 : Fin 3)) = c (ix1 v) := by
  refine (concatenate_apply_piece (1 : Fin S40x3.rank)
    [⟨S40x1, broadcastInDim S40x1 ![0] hb a⟩, ⟨S40x1, broadcastInDim S40x1 ![0] hb b⟩,
      ⟨S40x1, broadcastInDim S40x1 ![0] hb c⟩] h (ix2 v (2 : Fin 3))
    2 (Nat.succ_lt_succ (Nat.succ_lt_succ (Nat.zero_lt_succ _))) S40x1 _ rfl rfl 2 rfl (ix2 v (0 : Fin 1)) ?_ ?_).trans
    (col_apply hb c v 0)
  · intro e he
    match e with
    | ⟨0, _⟩ => rfl
    | ⟨1, _⟩ => exact absurd rfl he
  · rfl

/-- A [40, n] matrix as one row of a [40, 1, n] stack. -/
theorem row2_apply (hb : S40x2.BroadcastsInDim S40x1x2 (![0, 2] : Fin 2 → Fin S40x1x2.rank)) (x : FVec Ideal S40x2 .f32)
    (v : Fin 40) (q : Fin 1) (j : Fin 2) : broadcastInDim S40x1x2 ![0, 2] hb x (ix3 v q j) = x (ix2 v j) :=
  broadcastInDim_apply _ hb x _ (ix2 v j) (fun a => by match a with | ⟨0, _⟩ => rfl | ⟨1, _⟩ => rfl)

theorem row3_apply (hb : S40x3.BroadcastsInDim S40x1x3 (![0, 2] : Fin 2 → Fin S40x1x3.rank)) (x : FVec Ideal S40x3 .f32)
    (v : Fin 40) (q : Fin 1) (j : Fin 3) : broadcastInDim S40x1x3 ![0, 2] hb x (ix3 v q j) = x (ix2 v j) :=
  broadcastInDim_apply _ hb x _ (ix2 v j) (fun a => by match a with | ⟨0, _⟩ => rfl | ⟨1, _⟩ => rfl)

/-- Two [40, 2] matrices stacked as the two rows of [40, 2, 2]. -/
theorem stack2_apply0 (hb : S40x2.BroadcastsInDim S40x1x2 (![0, 2] : Fin 2 → Fin S40x1x2.rank))
    (h : Shape.Concatenates [S40x1x2, S40x1x2] S40x2x2 1) (a b : FVec Ideal S40x2 .f32) (v : Fin 40) (j : Fin 2) :
    concatenate S40x2x2 1 [⟨S40x1x2, broadcastInDim S40x1x2 ![0, 2] hb a⟩, ⟨S40x1x2, broadcastInDim S40x1x2 ![0, 2] hb b⟩] h
      (ix3 v (0 : Fin 2) j) = a (ix2 v j) := by
  refine (concatenate_apply_piece (1 : Fin S40x2x2.rank)
    [⟨S40x1x2, broadcastInDim S40x1x2 ![0, 2] hb a⟩, ⟨S40x1x2, broadcastInDim S40x1x2 ![0, 2] hb b⟩] h (ix3 v (0 : Fin 2) j)
    0 (Nat.zero_lt_succ _) S40x1x2 _ rfl rfl 0 rfl (ix3 v (0 : Fin 1) j) ?_ ?_).trans (row2_apply hb a v 0 j)
  · intro e he
    match e with
    | ⟨0, _⟩ => rfl
    | ⟨1, _⟩ => exact absurd rfl he
    | ⟨2, _⟩ => rfl
  · rfl

theorem stack2_apply1 (hb : S40x2.BroadcastsInDim S40x1x2 (![0, 2] : Fin 2 → Fin S40x1x2.rank))
    (h : Shape.Concatenates [S40x1x2, S40x1x2] S40x2x2 1) (a b : FVec Ideal S40x2 .f32) (v : Fin 40) (j : Fin 2) :
    concatenate S40x2x2 1 [⟨S40x1x2, broadcastInDim S40x1x2 ![0, 2] hb a⟩, ⟨S40x1x2, broadcastInDim S40x1x2 ![0, 2] hb b⟩] h
      (ix3 v (1 : Fin 2) j) = b (ix2 v j) := by
  refine (concatenate_apply_piece (1 : Fin S40x2x2.rank)
    [⟨S40x1x2, broadcastInDim S40x1x2 ![0, 2] hb a⟩, ⟨S40x1x2, broadcastInDim S40x1x2 ![0, 2] hb b⟩] h (ix3 v (1 : Fin 2) j)
    1 (Nat.succ_lt_succ (Nat.zero_lt_succ _)) S40x1x2 _ rfl rfl 1 rfl (ix3 v (0 : Fin 1) j) ?_ ?_).trans (row2_apply hb b v 0 j)
  · intro e he
    match e with
    | ⟨0, _⟩ => rfl
    | ⟨1, _⟩ => exact absurd rfl he
    | ⟨2, _⟩ => rfl
  · rfl

/-- Two [40, 3] matrices stacked as the two rows of [40, 2, 3]. -/
theorem stack3_apply0 (hb : S40x3.BroadcastsInDim S40x1x3 (![0, 2] : Fin 2 → Fin S40x1x3.rank))
    (h : Shape.Concatenates [S40x1x3, S40x1x3] S40x2x3 1) (a b : FVec Ideal S40x3 .f32) (v : Fin 40) (j : Fin 3) :
    concatenate S40x2x3 1 [⟨S40x1x3, broadcastInDim S40x1x3 ![0, 2] hb a⟩, ⟨S40x1x3, broadcastInDim S40x1x3 ![0, 2] hb b⟩] h
      (ix3 v (0 : Fin 2) j) = a (ix2 v j) := by
  refine (concatenate_apply_piece (1 : Fin S40x2x3.rank)
    [⟨S40x1x3, broadcastInDim S40x1x3 ![0, 2] hb a⟩, ⟨S40x1x3, broadcastInDim S40x1x3 ![0, 2] hb b⟩] h (ix3 v (0 : Fin 2) j)
    0 (Nat.zero_lt_succ _) S40x1x3 _ rfl rfl 0 rfl (ix3 v (0 : Fin 1) j) ?_ ?_).trans (row3_apply hb a v 0 j)
  · intro e he
    match e with
    | ⟨0, _⟩ => rfl
    | ⟨1, _⟩ => exact absurd rfl he
    | ⟨2, _⟩ => rfl
  · rfl

theorem stack3_apply1 (hb : S40x3.BroadcastsInDim S40x1x3 (![0, 2] : Fin 2 → Fin S40x1x3.rank))
    (h : Shape.Concatenates [S40x1x3, S40x1x3] S40x2x3 1) (a b : FVec Ideal S40x3 .f32) (v : Fin 40) (j : Fin 3) :
    concatenate S40x2x3 1 [⟨S40x1x3, broadcastInDim S40x1x3 ![0, 2] hb a⟩, ⟨S40x1x3, broadcastInDim S40x1x3 ![0, 2] hb b⟩] h
      (ix3 v (1 : Fin 2) j) = b (ix2 v j) := by
  refine (concatenate_apply_piece (1 : Fin S40x2x3.rank)
    [⟨S40x1x3, broadcastInDim S40x1x3 ![0, 2] hb a⟩, ⟨S40x1x3, broadcastInDim S40x1x3 ![0, 2] hb b⟩] h (ix3 v (1 : Fin 2) j)
    1 (Nat.succ_lt_succ (Nat.zero_lt_succ _)) S40x1x3 _ rfl rfl 1 rfl (ix3 v (0 : Fin 1) j) ?_ ?_).trans (row3_apply hb b v 0 j)
  · intro e he
    match e with
    | ⟨0, _⟩ => rfl
    | ⟨1, _⟩ => exact absurd rfl he
    | ⟨2, _⟩ => rfl
  · rfl

/-- The magnification [40] spread over [40, 2, 3]. -/
theorem mag_apply (h1 : S40x1x1.BroadcastsInDim S40x2x3 (![0, 1, 2] : Fin 3 → Fin S40x2x3.rank))
    (h2 : S40.BroadcastsInDim S40x1x1 (![0] : Fin 1 → Fin S40x1x1.rank)) (x : FVec Ideal S40 .f32)
    (v : Fin 40) (p : Fin 2) (k : Fin 3) :
    broadcastInDim S40x2x3 ![0, 1, 2] h1 (broadcastInDim S40x1x1 ![0] h2 x) (ix3 v p k) = x (ix1 v) :=
  (broadcastInDim_apply _ h1 _ _ (ix3 v (0 : Fin 1) (0 : Fin 1))
    (fun a => by match a with | ⟨0, _⟩ => rfl | ⟨1, _⟩ => rfl | ⟨2, _⟩ => rfl)).trans
  (broadcastInDim_apply _ h2 x _ (ix1 v) (fun a => by match a with | ⟨0, _⟩ => rfl))

/-- The offset [40, 2] repeated for each of the 4 markers. -/
theorem off_apply (h1 : S1x40x2.BroadcastsInDim S4x40x2 (![0, 1, 2] : Fin 3 → Fin S4x40x2.rank))
    (h2 : S40x2.BroadcastsInDim S1x40x2 (![1, 2] : Fin 2 → Fin S1x40x2.rank)) (x : FVec Ideal S40x2 .f32)
    (m : Fin 4) (v : Fin 40) (p : Fin 2) :
    broadcastInDim S4x40x2 ![0, 1, 2] h1 (broadcastInDim S1x40x2 ![1, 2] h2 x) (ix3 m v p) = x (ix2 v p) :=
  (broadcastInDim_apply _ h1 _ _ (ix3 (0 : Fin 1) v p)
    (fun a => by match a with | ⟨0, _⟩ => rfl | ⟨1, _⟩ => rfl | ⟨2, _⟩ => rfl)).trans
  (broadcastInDim_apply _ h2 x _ (ix2 v p) (fun a => by match a with | ⟨0, _⟩ => rfl | ⟨1, _⟩ => rfl))

/-- The [4, 40, 2] array re-laid as [160, 2]: row 40 m + v holds entry (m, v). -/
theorem reshape_apply (h : S4x40x2.ShapeCasts S160x2) (x : FVec Ideal S4x40x2 .f32) (r : Fin 160) (p : Fin 2) :
    shapeCast S160x2 x h (ix2 r p)
      = x (ix3 (⟨r.val / 40, by omega⟩ : Fin 4) (⟨r.val % 40, Nat.mod_lt _ (by decide)⟩ : Fin 40) p) :=
  shapeCast_apply x h _ _ (by
    rw [Shape.rowMajor_val_three, Shape.rowMajor_val_two]
    show (r.val / 40 * 40 + r.val % 40) * 2 + p.val = r.val * 2 + p.val
    omega)

/-- The coordinates' product with the scaled matrices: entry (m, v, p) sums over the three coordinates. -/
theorem dot2_apply (X : FVec Ideal S4x3 .f32) (B : FVec Ideal S40x2x3 .f32) (m : Fin 4) (v : Fin 40) (p : Fin 2) :
    Host.dotGeneral (F := Ideal) dot_S4x3_S40x2x3_S4x40x2_1_2_0_01_n_n none X B (ix3 m v p)
      = ∑ k : Fin 3, X (ix2 m k) * B (ix3 v p k) := by
  show FloatOps.dotGeneral _ none _ X B (ix3 m v p) = _
  rw [Ideal.dotGeneral_apply,
    ← Equiv.sum_comp (contrEquiv1 dot_S4x3_S40x2x3_S4x40x2_1_2_0_01_n_n 3 rfl rfl).symm]
  refine Finset.sum_congr rfl fun c _ => ?_
  have c3 := contrEquiv1_symm_val dot_S4x3_S40x2x3_S4x40x2_1_2_0_01_n_n 3 rfl rfl c
  have l3 : dot_S4x3_S40x2x3_S4x40x2_1_2_0_01_n_n.lhsIdx (ix3 m v p)
      ((contrEquiv1 dot_S4x3_S40x2x3_S4x40x2_1_2_0_01_n_n 3 rfl rfl).symm c) = ix2 m c := by
    funext ax; apply Fin.ext
    match ax with
    | ⟨0, _⟩ => simp [DotDims.lhsIdx, dot_S4x3_S40x2x3_S4x40x2_1_2_0_01_n_n]; rfl
    | ⟨1, _⟩ => simp [DotDims.lhsIdx, dot_S4x3_S40x2x3_S4x40x2_1_2_0_01_n_n]; exact c3
  have r3 : dot_S4x3_S40x2x3_S4x40x2_1_2_0_01_n_n.rhsIdx (ix3 m v p)
      ((contrEquiv1 dot_S4x3_S40x2x3_S4x40x2_1_2_0_01_n_n 3 rfl rfl).symm c) = ix3 v p c := by
    funext ax; apply Fin.ext
    match ax with
    | ⟨0, _⟩ => simp [DotDims.rhsIdx, dot_S4x3_S40x2x3_S4x40x2_1_2_0_01_n_n]; rfl
    | ⟨1, _⟩ => simp [DotDims.rhsIdx, dot_S4x3_S40x2x3_S4x40x2_1_2_0_01_n_n]; rfl
    | ⟨2, _⟩ => simp [DotDims.rhsIdx, dot_S4x3_S40x2x3_S4x40x2_1_2_0_01_n_n]; exact c3
  rw [l3, r3]

/-- The entries of the assembled matrices, one view at a time. -/
theorem cosd_apply (h : S_.BroadcastsInDim S40 (![] : Fin 0 → Fin S40.rank)) (x : FVec Ideal S40 .f32) (v : Fin 40) :
    Host.cos (F := Ideal) (mulf x (broadcastInDim S40 ![] h (constant (F := Ideal) S_ .f32 0x3C8EFA35#32))) (ix1 v)
      = Ideal.cos (x (ix1 v) * Cert.Spec.d2r) := rfl

theorem sind_apply (h : S_.BroadcastsInDim S40 (![] : Fin 0 → Fin S40.rank)) (x : FVec Ideal S40 .f32) (v : Fin 40) :
    Host.sin (F := Ideal) (mulf x (broadcastInDim S40 ![] h (constant (F := Ideal) S_ .f32 0x3C8EFA35#32))) (ix1 v)
      = Ideal.sin (x (ix1 v) * Cert.Spec.d2r) := rfl

theorem negsind_apply (h : S_.BroadcastsInDim S40 (![] : Fin 0 → Fin S40.rank)) (x : FVec Ideal S40 .f32) (v : Fin 40) :
    Host.negf (F := Ideal) (Host.sin (mulf x (broadcastInDim S40 ![] h (constant (F := Ideal) S_ .f32 0x3C8EFA35#32)))) (ix1 v)
      = -Ideal.sin (x (ix1 v) * Cert.Spec.d2r) := rfl

theorem cos_apply (x : FVec Ideal S40 .f32) (v : Fin 40) : Host.cos (F := Ideal) x (ix1 v) = Ideal.cos (x (ix1 v)) := rfl

theorem sin_apply (x : FVec Ideal S40 .f32) (v : Fin 40) : Host.sin (F := Ideal) x (ix1 v) = Ideal.sin (x (ix1 v)) := rfl

theorem zero_apply (h : S_.BroadcastsInDim S40 (![] : Fin 0 → Fin S40.rank)) (v : Fin 40) :
    broadcastInDim S40 ![] h (constant (F := Ideal) S_ .f32 0x00000000#32) (ix1 v) = 0 :=
  (splat_apply h _ v).trans Ideal.ofBits_zero_f32

theorem one_apply (h : S_.BroadcastsInDim S40 (![] : Fin 0 → Fin S40.rank)) (v : Fin 40) :
    broadcastInDim S40 ![] h (constant (F := Ideal) S_ .f32 0x3F800000#32) (ix1 v) = 1 :=
  (splat_apply h _ v).trans ofBits_one

/-- Row 0 of `me · R T` applied to the coordinates, on the extended reals: only `x · 0 = 0`, `x + 0 = x`, `x · 1 = x`,
    `0 − a = −a`, the sign rules of a product and the commutative monoid laws are used. -/
theorem row0_alg (x0 x1 x2 m cr sr ct st o : EReal) :
    x0 * (m * (cr * ct + -sr * 0)) + x1 * (m * (cr * 0 + -sr * 1)) + x2 * (m * (cr * st + -sr * 0)) + o
      = m * cr * ct * x0 + (0 - m) * sr * x1 + m * cr * st * x2 + o := by
  simp only [mul_zero, add_zero, zero_add, mul_one, zero_sub, neg_mul, mul_neg]
  simp only [mul_comm, mul_assoc, mul_left_comm]

/-- Row 1 likewise. -/
theorem row1_alg (x0 x1 x2 m cr sr ct st o : EReal) :
    x0 * (m * (sr * ct + cr * 0)) + x1 * (m * (sr * 0 + cr * 1)) + x2 * (m * (sr * st + cr * 0)) + o
      = m * sr * ct * x0 + m * cr * x1 + m * sr * st * x2 + o := by
  simp only [mul_zero, add_zero, zero_add, mul_one]
  simp only [mul_comm, mul_assoc, mul_left_comm]

theorem mid_row0 (rot tr me : FVec Ideal S40 .f32) (oe : FVec Ideal S40x2 .f32) (xyz : FVec Ideal S4x3 .f32) (r : Fin 160) :
    Cert.ReferenceIdeal.Hand.mid (F := Ideal) rot tr me oe xyz (ix2 r (0 : Fin 2))
      = Cert.Spec.G rot tr me oe xyz (ix2 r (0 : Fin 2)) := by
  rw [Cert.Spec.G_apply]
  unfold Cert.ReferenceIdeal.Hand.mid
  rw [reshape_apply, addf_apply, off_apply, dot2_apply, Fin.sum_univ_three]
  simp only [mulf_apply, dot1_apply, Fin.sum_univ_two]
  rw [mag_apply, mag_apply, mag_apply, stack2_apply0, stack2_apply0, stack3_apply0, stack3_apply0, stack3_apply0,
    stack3_apply1, stack3_apply1, stack3_apply1, cols2_apply0, cols2_apply1,
    cols3_apply0, cols3_apply0, cols3_apply1, cols3_apply1, cols3_apply2, cols3_apply2,
    cosd_apply, negsind_apply, cos_apply, sin_apply, zero_apply, one_apply]
  exact row0_alg _ _ _ _ _ _ _ _ _

theorem mid_row1 (rot tr me : FVec Ideal S40 .f32) (oe : FVec Ideal S40x2 .f32) (xyz : FVec Ideal S4x3 .f32) (r : Fin 160) :
    Cert.ReferenceIdeal.Hand.mid (F := Ideal) rot tr me oe xyz (ix2 r (1 : Fin 2))
      = Cert.Spec.G rot tr me oe xyz (ix2 r (1 : Fin 2)) := by
  rw [Cert.Spec.G_apply]
  unfold Cert.ReferenceIdeal.Hand.mid
  rw [reshape_apply, addf_apply, off_apply, dot2_apply, Fin.sum_univ_three]
  simp only [mulf_apply, dot1_apply, Fin.sum_univ_two]
  rw [mag_apply, mag_apply, mag_apply, stack2_apply1, stack2_apply1, stack3_apply0, stack3_apply0, stack3_apply0,
    stack3_apply1, stack3_apply1, stack3_apply1, cols2_apply0, cols2_apply1,
    cols3_apply0, cols3_apply0, cols3_apply1, cols3_apply1, cols3_apply2, cols3_apply2,
    sind_apply, cosd_apply, cos_apply, sin_apply, zero_apply, one_apply]
  exact row1_alg _ _ _ _ _ _ _ _ _

/-- The reference's host operations from the per-view quantities to the full [160, 2] array compute the specified
    array, entry by entry. -/
theorem mid_eq (rot tr me : FVec Ideal Cert.ReferenceIdeal.S40 .f32) (oe : FVec Ideal Cert.ReferenceIdeal.S40x2 .f32)
    (xyz : FVec Ideal Cert.ReferenceIdeal.S4x3 .f32) :
    Cert.ReferenceIdeal.Hand.mid (F := Ideal) rot tr me oe xyz = Cert.Spec.G rot tr me oe xyz := by
  funext i
  obtain ⟨r, p, rfl⟩ : ∃ (r : Fin 160) (p : Fin 2), i = ix2 r p := ⟨i 0, i 1, eq_ix2 i⟩
  match p with
  | ⟨0, _⟩ => exact mid_row0 rot tr me oe xyz r
  | ⟨1, _⟩ => exact mid_row1 rot tr me oe xyz r

end Cert.ReferenceIdeal.RValue

end
-- ==== Proof.lean ====
/-
  The certificate of the 40-view, 4-marker projection kernel against its jnp reference.

  Both programs compute, for every view v and marker m, the two image coordinates
  me(v) · R(rot v · π/180) · T(tilt v) · xyz(m) + off(v), where the per-view tilt angle, magnification and offset
  come from the argument arrays by the same host operations in both programs, and keep the same 142 of the 160
  rows. The kernel evaluates the six entries of me · R · T in closed form on a 40×5 table of per-view columns and
  multiplies them into the transposed coordinates; the reference builds R and T by concatenation and contracts
  them with two dot products. On the extended reals the two agree entry by entry: the products with the matrices'
  constant 0 and 1 entries drop out (x·0 = 0, x·1 = x, x + 0 = x), and what is left differs only by the order
  and grouping of products and by the place of a sign ((0 − a)·b = a·(−b)); none of these laws needs a finite
  operand, so the precondition is not used.

  The three frames: the kernel's program (at both instances) is host operations, one kernel region on a grid of
  one point whose windows are whole arrays, and host operations; the reference is host operations only. Every
  execution terminates and no operation writes an argument array.
-/
import proofs.«141354_j19318762897522_2_alg».proof.Defs
import proofs.«141354_j19318762897522_2_alg».proof.Proof.Gen.Kernel
import proofs.«141354_j19318762897522_2_alg».proof.Proof.Gen.KernelIdeal
import proofs.«141354_j19318762897522_2_alg».proof.Proof.Gen.ReferenceIdeal
import proofs.«141354_j19318762897522_2_alg».proof.Proof.Gen.Pre_finite_inputs
import proofs.«141354_j19318762897522_2_alg».proof.Proof.KernelFrame
import proofs.«141354_j19318762897522_2_alg».proof.Proof.KernelIdealFrame
import proofs.«141354_j19318762897522_2_alg».proof.Proof.Assembly
import proofs.«141354_j19318762897522_2_alg».proof.Proof.KernelValue
import proofs.«141354_j19318762897522_2_alg».proof.Proof.RefValue

noncomputable section

namespace Cert.Proof

open Idealize.ShloMosaic Idealize.SL.Sem

/-- The kernel's program as printed runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- The two idealized programs end with equal results. -/
theorem algebraic : Cert.algebraic_KernelIdeal_ReferenceIdeal :=
  algebraic_of Cert.KernelIdeal.KValue.stored_table Cert.ReferenceIdeal.RValue.mid_eq

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
